-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S96x256 : Shape := ⟨2, ![96, 256]⟩
abbrev S96 : Shape := ⟨1, ![96]⟩
abbrev S40x96 : Shape := ⟨2, ![40, 96]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x256 : S_.BroadcastsInDim S96x256 (![] : Fin 0 → Fin S96x256.rank)
  reducesTo_S96x256_S_d0_1 : S96x256.ReducesTo [0, 1] S_
  bcast_S_S96 : S_.BroadcastsInDim S96 (![] : Fin 0 → Fin S96.rank)
  reducesTo_S96_S_d0 : S96.ReducesTo [0] S_
  bcast_S_S40x96 : S_.BroadcastsInDim S40x96 (![] : Fin 0 → Fin S40x96.rank)
  reducesTo_S40x96_S_d0_1 : S40x96.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x96 .f32) (main_arg6 : FVec F S40 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S40x96 .f32 := Host.absf main_arg5
  let main_cst_6 : FVec F S_ .f32 := constant S_ .f32 0x7F800000#32
  let main_v20 : FVec F S40x96 .f32 := broadcastInDim S40x96 ![] bcast_S_S40x96 main_cst_6
  let main_v21 : IVec S40x96 1 := cmpf .olt main_v19 main_v20
  let main_c_7 : IVec S_ 1 := constantI S_ 1 1#1
  let main_v22 : IVec S_ 1 := (fun x v => Host.reduce IntOp.andi x v reducesTo_S40x96_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S96x256 .f32) (main_arg4 : FVec F S96 .f32) (main_arg5 : FVec F S40x96 .f32) (main_arg6 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x256 .f32 := Host.absf main_arg3
  let main_cst_2 : FVec F S_ .f32 := constant S_ .f32 0x7F800000#32
  let main_v10 : FVec F S96x256 .f32 := broadcastInDim S96x256 ![] bcast_S_S96x256 main_cst_2
  let main_v11 : IVec S96x256 1 := cmpf .olt main_v9 main_v10
  let main_c_3 : IVec S_ 1 := constantI S_ 1 1#1
  let main_v12 : IVec S_ 1 := (fun x v => Host.reduce IntOp.andi x v reducesTo_S96x256_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S96x256 : Shape := ⟨2, ![96, 256]⟩
abbrev S96 : Shape := ⟨1, ![96]⟩
abbrev S40x96 : Shape := ⟨2, ![40, 96]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S256x96 : Shape := ⟨2, ![256, 96]⟩
abbrev S50000x96 : Shape := ⟨2, ![50000, 96]⟩
abbrev S1000x256 : Shape := ⟨2, ![1000, 256]⟩
abbrev S1000x96 : Shape := ⟨2, ![1000, 96]⟩
abbrev S850000x96 : Shape := ⟨2, ![850000, 96]⟩
abbrev S5000x96 : Shape := ⟨2, ![5000, 96]⟩
abbrev S1x96 : Shape := ⟨2, ![1, 96]⟩
abbrev S96x40 : Shape := ⟨2, ![96, 40]⟩
abbrev S50000x40 : Shape := ⟨2, ![50000, 40]⟩
abbrev S1000x40 : Shape := ⟨2, ![1000, 40]⟩
abbrev S850000x40 : Shape := ⟨2, ![850000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 91
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S96x256, .f32⟩
  | .hbm, ⟨4, _⟩ => ⟨S96, .f32⟩
  | .hbm, ⟨5, _⟩ => ⟨S40x96, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S256x96, .f32⟩
  | .hbm, ⟨54, _⟩ => ⟨S50000x96, .f32⟩
  | .hbm, ⟨55, _⟩ => ⟨S850000x1, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x96, .f32⟩
  | .hbm, ⟨65, _⟩ => ⟨S850000x96, .f32⟩
  | .hbm, ⟨66, _⟩ => ⟨S850000x96, .f32⟩
  | .hbm, ⟨67, _⟩ => ⟨S_, .f32⟩
  | .hbm, ⟨68, _⟩ => ⟨S50000x96, .f32⟩
  | .hbm, ⟨69, _⟩ => ⟨S850000x1, .i32⟩
  | .hbm, ⟨70, _⟩ => ⟨S50000x96, .f32⟩
  | .hbm, ⟨71, _⟩ => ⟨S50000x96, .f32⟩
  | .hbm, ⟨72, _⟩ => ⟨S96x40, .f32⟩
  | .hbm, ⟨73, _⟩ => ⟨S50000x40, .f32⟩
  | .hbm, ⟨74, _⟩ => ⟨S850000x1, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x40, .f32⟩
  | .hbm, ⟨84, _⟩ => ⟨S850000x40, .f32⟩
  | .hbm, ⟨85, _⟩ => ⟨S850000x40, .f32⟩
  | .hbm, ⟨86, _⟩ => ⟨S_, .f32⟩
  | .hbm, ⟨87, _⟩ => ⟨S50000x40, .f32⟩
  | .hbm, ⟨88, _⟩ => ⟨S850000x1, .i32⟩
  | .hbm, ⟨89, _⟩ => ⟨S50000x40, .f32⟩
  | .hbm, ⟨90, _⟩ => ⟨S50000x40, .f32⟩
  | .local _ .vmem, ⟨0, _⟩ => ⟨S1000x256, .f32⟩
  | .local _ .vmem, ⟨1, _⟩ => ⟨S1000x256, .f32⟩
  | .local _ .vmem, ⟨2, _⟩ => ⟨S256x96, .f32⟩
  | .local _ .vmem, ⟨3, _⟩ => ⟨S1000x96, .f32⟩
  | .local _ .vmem, ⟨4, _⟩ => ⟨S1000x96, .f32⟩
  | .local _ .vmem, ⟨5, _⟩ => ⟨S5000x96, .f32⟩
  | .local _ .vmem, ⟨6, _⟩ => ⟨S5000x96, .f32⟩
  | .local _ .vmem, ⟨7, _⟩ => ⟨S96, .f32⟩
  | .local _ .vmem, ⟨8, _⟩ => ⟨S5000x96, .f32⟩
  | .local _ .vmem, ⟨9, _⟩ => ⟨S5000x96, .f32⟩
  | .local _ .vmem, ⟨10, _⟩ => ⟨S1000x96, .f32⟩
  | .local _ .vmem, ⟨11, _⟩ => ⟨S1000x96, .f32⟩
  | .local _ .vmem, ⟨12, _⟩ => ⟨S96x40, .f32⟩
  | .local _ .vmem, ⟨13, _⟩ => ⟨S1000x40, .f32⟩
  | .local _ .vmem, ⟨14, _⟩ => ⟨S1000x40, .f32⟩
  | .local _ .vmem, ⟨15, _⟩ => ⟨S5000x40, .f32⟩
  | .local _ .vmem, ⟨16, _⟩ => ⟨S5000x40, .f32⟩
  | .local _ .vmem, ⟨17, _⟩ => ⟨S40, .f32⟩
  | .local _ .vmem, ⟨18, _⟩ => ⟨S5000x40, .f32⟩
  | .local _ .vmem, ⟨19, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  transposes_S96x256_S256x96_1_0 : S96x256.Transposes [1, 0] S256x96
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x96_S256x96_0_0 : ∀ a, (![0, 0] : Fin 2 → Nat) a + S256x96.size a ≤ S256x96.size a
  h_S256x96 : 0 < S256x96.numel
  shapeCasts_S256x96_S256x96 : S256x96.ShapeCasts S256x96
  inb_S1000x96_S1000x96_0_0 : ∀ a, (![0, 0] : Fin 2 → Nat) a + S1000x96.size a ≤ S1000x96.size a
  h_S1000x96 : 0 < S1000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  transposes_S40x96_S96x40_1_0 : S40x96.Transposes [1, 0] S96x40
  shapeCasts_S1000x96_S1000x96 : S1000x96.ShapeCasts S1000x96
  inb_S96x40_S96x40_0_0 : ∀ a, (![0, 0] : Fin 2 → Nat) a + S96x40.size a ≤ S96x40.size a
  h_S96x40 : 0 < S96x40.numel
  shapeCasts_S96x40_S96x40 : S96x40.ShapeCasts S96x40
  inb_S1000x40_S1000x40_0_0 : ∀ a, (![0, 0] : Fin 2 → Nat) a + S1000x40.size a ≤ S1000x40.size a
  h_S1000x40 : 0 < S1000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x256_S256x96_S1000x96_1_0_0_1_n_n_wf : DotDims.WF S1000x256 S256x96 S1000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S1000x96_S96x40_S1000x40_1_0_0_1_n_n_wf : DotDims.WF S1000x96 S96x40 S1000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S256x96.size a
  hwx0_1 : ∀ i : grid0.Coords, EltTy.bits .f32 = 32 ∨ (Rect.block (s := S256x96) S256x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x96.size a ≤ S50000x96.size a
  hwx0_2 : ∀ i : grid0.Coords, EltTy.bits .f32 = 32 ∨ (Rect.block (s := S50000x96) S1000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96.size a ≤ S96.size a
  hwx1_1 : ∀ i : grid1.Coords, EltTy.bits .f32 = 32 ∨ (Rect.block (s := S96) S96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x96.size a ≤ S50000x96.size a
  hwx2_0 : ∀ i : grid2.Coords, EltTy.bits .f32 = 32 ∨ (Rect.block (s := S50000x96) S1000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x40.size a ≤ S96x40.size a
  hwx2_1 : ∀ i : grid2.Coords, EltTy.bits .f32 = 32 ∨ (Rect.block (s := S96x40) S96x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x40.size a ≤ S50000x40.size a
  hwx2_2 : ∀ i : grid2.Coords, EltTy.bits .f32 = 32 ∨ (Rect.block (s := S50000x40) S1000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x256_S256x96_S1000x96_1_0_0_1_n_n : DotDims S1000x256 S256x96 S1000x96 where
  lhsContracting := [1]
  rhsContracting := [0]
  lhsNonContracting := [0]
  rhsNonContracting := [1]
  lhsBatch := []
  rhsBatch := []
  wf := dot_S1000x256_S256x96_S1000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S1000x96_S96x40_S1000x40_1_0_0_1_n_n : DotDims S1000x96 S96x40 S1000x40 where
  lhsContracting := [1]
  rhsContracting := [0]
  lhsNonContracting := [0]
  rhsNonContracting := [1]
  lhsBatch := []
  rhsBatch := []
  wf := dot_S1000x96_S96x40_S1000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S1000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S96x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S96x256 : Shape := ⟨2, ![96, 256]⟩
abbrev S96 : Shape := ⟨1, ![96]⟩
abbrev S40x96 : Shape := ⟨2, ![40, 96]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S256x96 : Shape := ⟨2, ![256, 96]⟩
abbrev S50000x96 : Shape := ⟨2, ![50000, 96]⟩
abbrev S850000x96 : Shape := ⟨2, ![850000, 96]⟩
abbrev S1x96 : Shape := ⟨2, ![1, 96]⟩
abbrev S96x40 : Shape := ⟨2, ![96, 40]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S96x256, .f32⟩
  | .hbm, ⟨4, _⟩ => ⟨S96, .f32⟩
  | .hbm, ⟨5, _⟩ => ⟨S40x96, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S256x96, .f32⟩
  | .hbm, ⟨54, _⟩ => ⟨S50000x96, .f32⟩
  | .hbm, ⟨55, _⟩ => ⟨S850000x1, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x96, .f32⟩
  | .hbm, ⟨65, _⟩ => ⟨S850000x96, .f32⟩
  | .hbm, ⟨66, _⟩ => ⟨S850000x96, .f32⟩
  | .hbm, ⟨67, _⟩ => ⟨S_, .f32⟩
  | .hbm, ⟨68, _⟩ => ⟨S50000x96, .f32⟩
  | .hbm, ⟨69, _⟩ => ⟨S850000x1, .i32⟩
  | .hbm, ⟨70, _⟩ => ⟨S50000x96, .f32⟩
  | .hbm, ⟨71, _⟩ => ⟨S1x96, .f32⟩
  | .hbm, ⟨72, _⟩ => ⟨S50000x96, .f32⟩
  | .hbm, ⟨73, _⟩ => ⟨S50000x96, .f32⟩
  | .hbm, ⟨74, _⟩ => ⟨S_, .f32⟩
  | .hbm, ⟨75, _⟩ => ⟨S50000x96, .f32⟩
  | .hbm, ⟨76, _⟩ => ⟨S50000x96, .f32⟩
  | .hbm, ⟨77, _⟩ => ⟨S96x40, .f32⟩
  | .hbm, ⟨78, _⟩ => ⟨S50000x40, .f32⟩
  | .hbm, ⟨79, _⟩ => ⟨S850000x1, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x40, .f32⟩
  | .hbm, ⟨89, _⟩ => ⟨S850000x40, .f32⟩
  | .hbm, ⟨90, _⟩ => ⟨S850000x40, .f32⟩
  | .hbm, ⟨91, _⟩ => ⟨S_, .f32⟩
  | .hbm, ⟨92, _⟩ => ⟨S50000x40, .f32⟩
  | .hbm, ⟨93, _⟩ => ⟨S850000x1, .i32⟩
  | .hbm, ⟨94, _⟩ => ⟨S50000x40, .f32⟩
  | .hbm, ⟨95, _⟩ => ⟨S1x40, .f32⟩
  | .hbm, ⟨96, _⟩ => ⟨S50000x40, .f32⟩
  | .hbm, ⟨97, _⟩ => ⟨S50000x40, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x40, .f32⟩
  | .hbm, ⟨105, _⟩ => ⟨S50000x40, .f32⟩
  | .hbm, ⟨106, _⟩ => ⟨S50000x40, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S50000x40, .f32⟩
  | .hbm, ⟨112, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call2_cst : Ref sig .tc := ⟨.hbm, 98, rfl⟩
abbrev main_call2_v0 : Ref sig .tc := ⟨.hbm, 99, rfl⟩
abbrev main_call2_cst_0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_cst_1 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_v71 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  transposes_S96x256_S256x96_1_0 : S96x256.Transposes [1, 0] S256x96
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  transposes_S40x96_S96x40_1_0 : S40x96.Transposes [1, 0] S96x40
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x96_S50000x96_1_0_0_1_n_n_wf : DotDims.WF S50000x256 S256x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x96_S50000x96_1_0_0_1_n_n : DotDims S50000x256 S256x96 S50000x96 where
  lhsContracting := [1]
  rhsContracting := [0]
  lhsNonContracting := [0]
  rhsNonContracting := [1]
  lhsBatch := []
  rhsBatch := []
  wf := dot_S50000x256_S256x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run, with every buffer of the final memory named.

  @main is ten segments: stretches of host operations and four kernel regions.  The contents of the
  TensorCore's buffers at each boundary are a fold from the launch memory (`Gen.W0` … `Gen.W10`): a host stretch
  applies its operations, a region replaces its output array by what its grid points write back and keeps
  every other buffer.  This module states the run with that fold in its post: every weakly fair execution
  terminates and every buffer that no scope hides ends holding `Gen.W10`.  The result array and the argument
  arrays are among those buffers, so the value of the result and the frame both follow from this one statement.
-/
import proofs.«161012_j21045339750898_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in the final memory every unscoped buffer of every core
    holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- A buffer of @main that no scope hides is among the buffers the run names. -/
theorem named (b : Ref sig .tc) (h : ¬ (Proc.devRef .tc b : DevRef τ sig).isScoped) :
    Proc.devRef .tc b ∈ Pipeline.ucRefs τ sig := mem_uc b h

end Cert.KernelIdeal.Whole

end
-- ==== Proof.Spec.lean ====
/-
  The two-layer graph convolution, as staged functions of the argument arrays.

  A graph on 50000 nodes is given by 800000 directed edges (a source row and a target row of node numbers) with
  one weight per edge.  Every node gets one more edge to itself, of weight one: 850000 edges.  A node's degree
  counts the edges that leave it; an edge (s, t) of weight w is normalised to  deg(s)^(-1/2) · w · deg(t)^(-1/2)
  (a node of degree zero contributes zero).  One layer maps node features H to
      out[t] = Σ over edges (s, t) of  norm(s, t) · (H · Wᵀ)[s]  +  b,
  the sum over the edges that END in t.  The network is  relu  of the first layer, then the second layer, then a
  row-wise log-softmax:  z - max(z) - log Σ exp(z - max(z)).

  Every definition below is the operations of the reference program for one of these steps, in the program's
  order and with the program's own shape and index records, so that both programs' runs can be read as
  compositions of them.  They are stated for any float instance; the float constants name the instance
  explicitly, since a constant vector mentions it nowhere else.
-/
import proofs.«161012_j21045339750898_1_alg».proof.Proof.Gen.ReferenceIdeal

noncomputable section

namespace Cert.Gcn

open Cert.ReferenceIdeal Cert.ReferenceIdeal.Facts₀ Idealize.ShloMosaic

variable {F : FTy → Type} [FloatOps F]

/-- Row `r` of the 2 × 800000 edge table followed by 0, 1, …, 49999: the edges' end points with the self-loops. -/
def sources (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

def targets (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The edge weights followed by 50000 ones. -/
def weights (ew : (⟨S800000, .f32⟩ : BufTy).Contents (Elt F)) : (⟨S850000, .f32⟩ : BufTy).Contents (Elt F) :=
  concatenate S850000 0 [⟨S800000, ew⟩, ⟨S50000, (broadcastInDim S50000 ![] bcast_S_S50000 (constant (F := F) S_ .f32 0x3F800000#32))⟩] concatenates_S800000_S50000_S850000_d0

/-- Node numbers as a gather reads them: a negative number counted from the end, as a column of index vectors. -/
def asRows (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- A node's degree: one for every edge that leaves it. -/
def degree (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (broadcastInDim S850000x1 ![0] bcast_S850000_S850000x1_0 (sources (F := F) ei))
    (broadcastInDim S850000 ![] bcast_S_S850000 (constant (F := F) S_ .f32 0x3F800000#32))

/-- deg^(-1/2) where the degree is positive, zero elsewhere. -/
def invSqrtDegree (ei : (⟨S2x800000, .i32⟩ : BufTy).Contents (Elt F)) : (⟨S50000, .f32⟩ : BufTy).Contents (Elt F) :=
  select (cmpf .ogt (degree (F := F) ei) (broadcastInDim S50000 ![] bcast_S_S50000 (constant (F := F) S_ .f32 0x00000000#32)))
    (Host.powf (degree (F := F) ei) (broadcastInDim S50000 ![] bcast_S_S50000 (constant (F := F) S_ .f32 0xBF000000#32)))
    (broadcastInDim S50000 ![] bcast_S_S50000 (id (constant (F := F) S_ .f32 0x00000000#32)))

/-- The normalised weight of every edge. -/
def edgeNorm (ei : (⟨S2x800000, .i32⟩ : BufTy).Contents (Elt F)) (ew : (⟨S800000, .f32⟩ : BufTy).Contents (Elt F)) :
    (⟨S850000, .f32⟩ : BufTy).Contents (Elt F) :=
  mulf (mulf (Host.gather gather_S50000_S850000x1_S850000_n_0_n_n_0_1_1 (invSqrtDegree (F := F) ei) (asRows (F := F) (sources (F := F) ei))) (weights ew))
    (Host.gather gather_S50000_S850000x1_S850000_n_0_n_n_0_1_1 (invSqrtDegree (F := F) ei) (asRows (F := F) (targets (F := F) ei)))

/-- Message passing on 96 features: the rows of `h` at the edges' sources, scaled by the edges' norms, summed into the
    edges' targets. -/
def propagate96 (ei : (⟨S2x800000, .i32⟩ : BufTy).Contents (Elt F)) (ew : (⟨S800000, .f32⟩ : BufTy).Contents (Elt F))
    (h : (⟨S50000x96, .f32⟩ : BufTy).Contents (Elt F)) : (⟨S50000x96, .f32⟩ : BufTy).Contents (Elt F) :=
  Host.scatterAdd scatter_S50000x96_S850000x1_S850000x96_1_0_0_1
    (broadcastInDim S50000x96 ![] bcast_S_S50000x96 (constant (F := F) S_ .f32 0x00000000#32))
    (broadcastInDim S850000x1 ![0] bcast_S850000_S850000x1_0 (targets (F := F) ei))
    (mulf (broadcastInDim S850000x96 ![0, 1] bcast_S850000x1_S850000x96_0_1 (broadcastInDim S850000x1 ![0] bcast_S850000_S850000x1_0 (edgeNorm ei ew)))
      (Host.gather gather_S50000x96_S850000x1_S850000x96_1_0_n_n_0_1_196 h (asRows (F := F) (sources (F := F) ei))))

/-- The same on 40 features. -/
def propagate40 (ei : (⟨S2x800000, .i32⟩ : BufTy).Contents (Elt F)) (ew : (⟨S800000, .f32⟩ : BufTy).Contents (Elt F))
    (h : (⟨S50000x40, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant (F := F) S_ .f32 0x00000000#32))
    (broadcastInDim S850000x1 ![0] bcast_S850000_S850000x1_0 (targets (F := F) ei))
    (mulf (broadcastInDim S850000x40 ![0, 1] bcast_S850000x1_S850000x40_0_1 (broadcastInDim S850000x1 ![0] bcast_S850000_S850000x1_0 (edgeNorm ei ew)))
      (Host.gather gather_S50000x40_S850000x1_S850000x40_1_0_n_n_0_1_140 h (asRows (F := F) (sources (F := F) ei))))

/-- The weights of the two layers, transposed. -/
def weightT1 (w : (⟨S96x256, .f32⟩ : BufTy).Contents (Elt F)) : (⟨S256x96, .f32⟩ : BufTy).Contents (Elt F) :=
  transpose S256x96 [1, 0] w transposes_S96x256_S256x96_1_0
def weightT2 (w : (⟨S40x96, .f32⟩ : BufTy).Contents (Elt F)) : (⟨S96x40, .f32⟩ : BufTy).Contents (Elt F) :=
  transpose S96x40 [1, 0] w transposes_S40x96_S96x40_1_0

/-- x · W1ᵀ and h · W2ᵀ. -/
def project1 (x : (⟨S50000x256, .f32⟩ : BufTy).Contents (Elt F)) (wt : (⟨S256x96, .f32⟩ : BufTy).Contents (Elt F)) :
    (⟨S50000x96, .f32⟩ : BufTy).Contents (Elt F) :=
  Host.dotGeneral dot_S50000x256_S256x96_S50000x96_1_0_0_1_n_n none x wt
def project2 (h : (⟨S50000x96, .f32⟩ : BufTy).Contents (Elt F)) (wt : (⟨S96x40, .f32⟩ : BufTy).Contents (Elt F)) :
    (⟨S50000x40, .f32⟩ : BufTy).Contents (Elt F) :=
  Host.dotGeneral dot_S50000x96_S96x40_S50000x40_1_0_0_1_n_n none h wt

/-- The bias added to every row. -/
def addBias96 (a : (⟨S50000x96, .f32⟩ : BufTy).Contents (Elt F)) (b : (⟨S96, .f32⟩ : BufTy).Contents (Elt F)) :
    (⟨S50000x96, .f32⟩ : BufTy).Contents (Elt F) :=
  addf a (broadcastInDim S50000x96 ![0, 1] bcast_S1x96_S50000x96_0_1 (broadcastInDim S1x96 ![1] bcast_S96_S1x96_1 b))
def addBias40 (a : (⟨S50000x40, .f32⟩ : BufTy).Contents (Elt F)) (b : (⟨S40, .f32⟩ : BufTy).Contents (Elt F)) :
    (⟨S50000x40, .f32⟩ : BufTy).Contents (Elt F) :=
  addf a (broadcastInDim S50000x40 ![0, 1] bcast_S1x40_S50000x40_0_1 (broadcastInDim S1x40 ![1] bcast_S40_S1x40_1 b))

/-- max(z, 0). -/
def relu (z : (⟨S50000x96, .f32⟩ : BufTy).Contents (Elt F)) : (⟨S50000x96, .f32⟩ : BufTy).Contents (Elt F) :=
  maximumf z (broadcastInDim S50000x96 ![] bcast_S_S50000x96 (constant (F := F) S_ .f32 0x00000000#32))

/-- Every row's maximum. -/
def rowMax (z : (⟨S50000x40, .f32⟩ : BufTy).Contents (Elt F)) : (⟨S50000, .f32⟩ : BufTy).Contents (Elt F) :=
  maximumf (broadcastInDim S50000 ![] bcast_S_S50000 (constant (F := F) S_ .f32 0xFF800000#32))
    (Host.reduce FloatOps.maximumf z (constant (F := F) S_ .f32 0xFF800000#32) reducesTo_S50000x40_S50000_d1 h_S_)

/-- z minus its row's maximum. -/
def shifted (z : (⟨S50000x40, .f32⟩ : BufTy).Contents (Elt F)) : (⟨S50000x40, .f32⟩ : BufTy).Contents (Elt F) :=
  subf z (broadcastInDim S50000x40 ![0, 1] bcast_S50000x1_S50000x40_0_1 (broadcastInDim S50000x1 ![0] bcast_S50000_S50000x1_0 (rowMax z)))

/-- The reference's log-softmax of every row: (z - max) - log Σ exp (z - max). -/
def logSoftmax (z : (⟨S50000x40, .f32⟩ : BufTy).Contents (Elt F)) : (⟨S50000x40, .f32⟩ : BufTy).Contents (Elt F) :=
  subf (shifted z)
    (broadcastInDim S50000x40 ![0, 1] bcast_S50000x1_S50000x40_0_1
      (Host.log (broadcastInDim S50000x1 ![0] bcast_S50000_S50000x1_0
        (Host.reduceAdd (Host.exp (shifted z)) (constant (F := F) S_ .f32 0x00000000#32) reducesTo_S50000x40_S50000_d1 h_S_))))

/-- The hidden layer and the network's logits. -/
def hidden (x : (⟨S50000x256, .f32⟩ : BufTy).Contents (Elt F)) (ei : (⟨S2x800000, .i32⟩ : BufTy).Contents (Elt F))
    (ew : (⟨S800000, .f32⟩ : BufTy).Contents (Elt F)) (w1 : (⟨S96x256, .f32⟩ : BufTy).Contents (Elt F))
    (b1 : (⟨S96, .f32⟩ : BufTy).Contents (Elt F)) : (⟨S50000x96, .f32⟩ : BufTy).Contents (Elt F) :=
  relu (addBias96 (propagate96 ei ew (project1 x (weightT1 w1))) b1)

def logits (x : (⟨S50000x256, .f32⟩ : BufTy).Contents (Elt F)) (ei : (⟨S2x800000, .i32⟩ : BufTy).Contents (Elt F))
    (ew : (⟨S800000, .f32⟩ : BufTy).Contents (Elt F)) (w1 : (⟨S96x256, .f32⟩ : BufTy).Contents (Elt F))
    (b1 : (⟨S96, .f32⟩ : BufTy).Contents (Elt F)) (w2 : (⟨S40x96, .f32⟩ : BufTy).Contents (Elt F))
    (b2 : (⟨S40, .f32⟩ : BufTy).Contents (Elt F)) : (⟨S50000x40, .f32⟩ : BufTy).Contents (Elt F) :=
  addBias40 (propagate40 ei ew (project2 (hidden x ei ew w1 b1) (weightT2 w2))) b2

/-- The network. -/
def network (x : (⟨S50000x256, .f32⟩ : BufTy).Contents (Elt F)) (ei : (⟨S2x800000, .i32⟩ : BufTy).Contents (Elt F))
    (ew : (⟨S800000, .f32⟩ : BufTy).Contents (Elt F)) (w1 : (⟨S96x256, .f32⟩ : BufTy).Contents (Elt F))
    (b1 : (⟨S96, .f32⟩ : BufTy).Contents (Elt F)) (w2 : (⟨S40x96, .f32⟩ : BufTy).Contents (Elt F))
    (b2 : (⟨S40, .f32⟩ : BufTy).Contents (Elt F)) : (⟨S50000x40, .f32⟩ : BufTy).Contents (Elt F) :=
  logSoftmax (logits x ei ew w1 b1 w2 b2)

end Cert.Gcn

end
-- ==== Proof.BlocksProduct.lean ====
/-
  The two dense projections, from blocks to arrays.

  Each projection kernel walks the rows of its left operand in blocks of 1000: at grid point t it loads rows
  1000 t … 1000 t + 999 of the left operand and the whole right operand, multiplies them (the change of format
  before the product is the identity on extended reals, and the accumulator starts at zero) and writes the
  product back as rows 1000 t … 1000 t + 999 of the result.  An entry of a product of a block of rows by a matrix
  depends only on its own row, so the blocks written are the blocks of ONE array, the product of the whole left
  operand by the right operand:  out[r, c] = Σ_k left[r, k] · right[k, c].  The fifty blocks tile the result.
-/
import proofs.«161012_j21045339750898_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Product

open Idealize.ShloMosaic Idealize.ShloMosaic.ValueIdx

/-- The index (row of `i`, c). -/
abbrev inRow {n k p : Nat} (i : (⟨2, ![n, p]⟩ : Shape).Idx) (c : Fin k) : (⟨2, ![n, k]⟩ : Shape).Idx :=
  fun a => match a with | ⟨0, _⟩ => ⟨(i 0).val, (i 0).isLt⟩ | ⟨1, _⟩ => c
/-- The index (c, column of `i`). -/
abbrev inCol {n k p : Nat} (i : (⟨2, ![n, p]⟩ : Shape).Idx) (c : Fin k) : (⟨2, ![k, p]⟩ : Shape).Idx :=
  fun a => match a with | ⟨0, _⟩ => c | ⟨1, _⟩ => ⟨(i 1).val, (i 1).isLt⟩

/-- Rows times columns over the extended reals. -/
def rowsByCols {n k p : Nat} (X : (⟨2, ![n, k]⟩ : Shape).Idx → EReal) (Y : (⟨2, ![k, p]⟩ : Shape).Idx → EReal) :
    (⟨2, ![n, p]⟩ : Shape).Idx → EReal :=
  fun i => ∑ c : Fin k, X (inRow i c) * Y (inCol i c)

end Cert.Gcn.Product

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn.Product

theorem zeroOffsets : (![0, 0] : Fin 2 → Nat) = fun _ => 0 := funext fun a => by fin_cases a <;> rfl

/-! ## The first projection: 256 features to 96 -/

theorem dot1_lhs0 (i : S1000x96.Idx) (q : dot_S1000x256_S256x96_S1000x96_1_0_0_1_n_n.contr.Idx) :
    (dot_S1000x256_S256x96_S1000x96_1_0_0_1_n_n.lhsIdx i q 0).val = (i 0).val := by
  unfold DotDims.lhsIdx
  rw [dif_neg (show ¬(0 : Fin S1000x256.rank) ∈ dot_S1000x256_S256x96_S1000x96_1_0_0_1_n_n.lhsBatch by decide), dif_pos (show (0 : Fin S1000x256.rank) ∈ dot_S1000x256_S256x96_S1000x96_1_0_0_1_n_n.lhsNonContracting by decide)]
  rfl
theorem dot1_rhs1 (i : S1000x96.Idx) (q : dot_S1000x256_S256x96_S1000x96_1_0_0_1_n_n.contr.Idx) :
    (dot_S1000x256_S256x96_S1000x96_1_0_0_1_n_n.rhsIdx i q 1).val = (i 1).val := by
  unfold DotDims.rhsIdx
  rw [dif_neg (show ¬(1 : Fin S256x96.rank) ∈ dot_S1000x256_S256x96_S1000x96_1_0_0_1_n_n.rhsBatch by decide), dif_pos (show (1 : Fin S256x96.rank) ∈ dot_S1000x256_S256x96_S1000x96_1_0_0_1_n_n.rhsNonContracting by decide)]
  rfl

/-- The body's arithmetic at an entry: the row of the left block times the column of the right operand. -/
theorem product1_at (x : FVec Ideal S1000x256 .f32) (w : FVec Ideal S256x96 .f32) (j : S1000x96.Idx) :
    k0_pay1 (F := Ideal) x w j = rowsByCols x w j := by
  unfold k0_pay1 rowsByCols
  refine (Ideal.matmul_constant_zero_apply dot_S1000x256_S256x96_S1000x96_1_0_0_1_n_n none _ _ j).trans ?_
  rw [← Equiv.sum_comp (contrEquiv1 dot_S1000x256_S256x96_S1000x96_1_0_0_1_n_n 256 rfl rfl).symm]
  refine Finset.sum_congr rfl fun c _ => ?_
  have hc := contrEquiv1_symm_val dot_S1000x256_S256x96_S1000x96_1_0_0_1_n_n 256 rfl rfl c
  have el : dot_S1000x256_S256x96_S1000x96_1_0_0_1_n_n.lhsIdx j ((contrEquiv1 dot_S1000x256_S256x96_S1000x96_1_0_0_1_n_n 256 rfl rfl).symm c) = inRow j c := funext fun a => Fin.ext (by
    match a with
    | ⟨0, _⟩ => exact dot1_lhs0 _ _
    | ⟨1, _⟩ => exact (dot_S1000x256_S256x96_S1000x96_1_0_0_1_n_n.lhsIdx_val_of_single rfl j _).trans hc)
  have er : dot_S1000x256_S256x96_S1000x96_1_0_0_1_n_n.rhsIdx j ((contrEquiv1 dot_S1000x256_S256x96_S1000x96_1_0_0_1_n_n 256 rfl rfl).symm c) = inCol j c := funext fun a => Fin.ext (by
    match a with
    | ⟨0, _⟩ => exact (dot_S1000x256_S256x96_S1000x96_1_0_0_1_n_n.rhsIdx_val_of_single rfl j _).trans hc
    | ⟨1, _⟩ => exact dot1_rhs1 _ _)
  rw [el, er, shapeCast_self]
  rfl

/-- Where the three windows' blocks sit at every grid point. -/
theorem places1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

section
variable (V : (c : Dev nD) → (b : Ref sig .tc) → Buf (Elt Ideal) ((c : Thread nD τ).loc b))

/-- What grid point `t` writes back is block `t` of the product of the whole arrays. -/
theorem wrote1 (c : Dev nD) (t : Fin cfg0.N) :
    (dat0 V c).flushed 2 t = ((cfg0.win 2).blk t).view.read (Elt Ideal) (rowsByCols (n := 50000) (k := 256) (p := 96) (V c main_arg0) (V c main_v34)) := by
  show (cfg0.win 2).cut (grid0.coords t) ((dat0 V c).after 2 t) = _
  rw [after0_2]
  unfold out0_2
  rw [View.canon_unit_zero zeroOffsets]
  simp only [View.ld_unit_zero (S := S1000x256) zeroOffsets, View.ld_unit_zero (S := S256x96) zeroOffsets]
  obtain ⟨e0, e1, e2, e3, e4, e5⟩ := places1 t
  funext j
  show k0_pay1 (F := Ideal) (iblk0 V c 0 t) (iblk0 V c 1 t) j = rowsByCols (n := 50000) (k := 256) (p := 96) (V c main_arg0) (V c main_v34) (((cfg0.win 2).blk t).view.emb j)
  refine (product1_at _ _ j).trans ?_
  unfold rowsByCols
  refine Finset.sum_congr rfl fun k _ => ?_
  have h0 : ((cfg0.win 0).blk t).view.emb (inRow j k) = inRow (((cfg0.win 2).blk t).view.emb j) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 256 + 1 * k.val = k.val; omega
  have h1 : ((cfg0.win 1).blk t).view.emb (inCol j k) = inCol (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 96 + 1 * (j 1).val = win0_2.index t (1 : Fin 2) * 96 + 1 * (j 1).val; omega
  refine congrArg₂ (· * ·) ?_ ?_
  · show V c main_arg0 (((cfg0.win 0).blk t).view.emb (inRow j k)) = V c main_arg0 (inRow (((cfg0.win 2).blk t).view.emb j) k)
    rw [h0]
  · show V c main_v34 (((cfg0.win 1).blk t).view.emb (inCol j k)) = V c main_v34 (inCol (((cfg0.win 2).blk t).view.emb j) k)
    rw [h1]

/-- An index of the result is in point `t`'s block iff its row is one of the block's thousand. -/
theorem inBlock1 (t : Fin cfg0.N) (i : S50000x96.Idx) :
    i ∈ ((cfg0.win 2).blk t).view.set ↔ ∀ a : Fin 2, win0_2.index t a * S1000x96.size a ≤ (i a).val ∧ (i a).val < win0_2.index t a * S1000x96.size a + S1000x96.size a := by
  show i ∈ ((View.whole main_v35).slice (win0_2.rect t)).set ↔ _
  rw [View.set_slice_whole, Rect.mem_set_unit]
  exact Iff.rfl

/-- Every index of the result is in some point's block: row r in block r / 1000. -/
theorem tiled1 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  refine ⟨⟨(i 0).val / 1000, by rw [show cfg0.N = 50 from N_0]; omega⟩, flush0_2 _, ?_⟩
  rw [inBlock1]
  obtain ⟨e0, e1, e2, e3, e4, e5⟩ := places1 ⟨(i 0).val / 1000, by rw [show cfg0.N = 50 from N_0]; omega⟩
  intro a
  match a with
  | ⟨0, _⟩ => show win0_2.index _ (0 : Fin 2) * 1000 ≤ (i 0).val ∧ (i 0).val < win0_2.index _ (0 : Fin 2) * 1000 + 1000; rw [e4]; show (i 0).val / 1000 * 1000 ≤ (i 0).val ∧ (i 0).val < (i 0).val / 1000 * 1000 + 1000; omega
  | ⟨1, _⟩ => show win0_2.index _ (1 : Fin 2) * 96 ≤ (i 1).val ∧ (i 1).val < win0_2.index _ (1 : Fin 2) * 96 + 96; rw [e5]; omega

/-- The result array after the region: the product of the arrays the region found. -/
theorem result1 (c : Dev nD) :
    (dat0 V c).arrAt 2 cfg0.N = rowsByCols (n := 50000) (k := 256) (p := 96) (V c main_arg0) (V c main_v34) :=
  (dat0 V c).arrAt_eq_of_cover 2 _ (fun t _ => wrote1 V c t) tiled1

end

/-! ## The second projection: 96 features to 40 -/

theorem dot2_lhs0 (i : S1000x40.Idx) (q : dot_S1000x96_S96x40_S1000x40_1_0_0_1_n_n.contr.Idx) :
    (dot_S1000x96_S96x40_S1000x40_1_0_0_1_n_n.lhsIdx i q 0).val = (i 0).val := by
  unfold DotDims.lhsIdx
  rw [dif_neg (show ¬(0 : Fin S1000x96.rank) ∈ dot_S1000x96_S96x40_S1000x40_1_0_0_1_n_n.lhsBatch by decide), dif_pos (show (0 : Fin S1000x96.rank) ∈ dot_S1000x96_S96x40_S1000x40_1_0_0_1_n_n.lhsNonContracting by decide)]
  rfl
theorem dot2_rhs1 (i : S1000x40.Idx) (q : dot_S1000x96_S96x40_S1000x40_1_0_0_1_n_n.contr.Idx) :
    (dot_S1000x96_S96x40_S1000x40_1_0_0_1_n_n.rhsIdx i q 1).val = (i 1).val := by
  unfold DotDims.rhsIdx
  rw [dif_neg (show ¬(1 : Fin S96x40.rank) ∈ dot_S1000x96_S96x40_S1000x40_1_0_0_1_n_n.rhsBatch by decide), dif_pos (show (1 : Fin S96x40.rank) ∈ dot_S1000x96_S96x40_S1000x40_1_0_0_1_n_n.rhsNonContracting by decide)]
  rfl

/-- The body's arithmetic at an entry: the row of the left block times the column of the right operand. -/
theorem product2_at (x : FVec Ideal S1000x96 .f32) (w : FVec Ideal S96x40 .f32) (j : S1000x40.Idx) :
    k2_pay1 (F := Ideal) x w j = rowsByCols x w j := by
  unfold k2_pay1 rowsByCols
  refine (Ideal.matmul_constant_zero_apply dot_S1000x96_S96x40_S1000x40_1_0_0_1_n_n none _ _ j).trans ?_
  rw [← Equiv.sum_comp (contrEquiv1 dot_S1000x96_S96x40_S1000x40_1_0_0_1_n_n 96 rfl rfl).symm]
  refine Finset.sum_congr rfl fun c _ => ?_
  have hc := contrEquiv1_symm_val dot_S1000x96_S96x40_S1000x40_1_0_0_1_n_n 96 rfl rfl c
  have el : dot_S1000x96_S96x40_S1000x40_1_0_0_1_n_n.lhsIdx j ((contrEquiv1 dot_S1000x96_S96x40_S1000x40_1_0_0_1_n_n 96 rfl rfl).symm c) = inRow j c := funext fun a => Fin.ext (by
    match a with
    | ⟨0, _⟩ => exact dot2_lhs0 _ _
    | ⟨1, _⟩ => exact (dot_S1000x96_S96x40_S1000x40_1_0_0_1_n_n.lhsIdx_val_of_single rfl j _).trans hc)
  have er : dot_S1000x96_S96x40_S1000x40_1_0_0_1_n_n.rhsIdx j ((contrEquiv1 dot_S1000x96_S96x40_S1000x40_1_0_0_1_n_n 96 rfl rfl).symm c) = inCol j c := funext fun a => Fin.ext (by
    match a with
    | ⟨0, _⟩ => exact (dot_S1000x96_S96x40_S1000x40_1_0_0_1_n_n.rhsIdx_val_of_single rfl j _).trans hc
    | ⟨1, _⟩ => exact dot2_rhs1 _ _)
  rw [el, er, shapeCast_self, shapeCast_self]
  rfl

/-- Where the three windows' blocks sit at every grid point. -/
theorem places2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0)

section
variable (V : (c : Dev nD) → (b : Ref sig .tc) → Buf (Elt Ideal) ((c : Thread nD τ).loc b))

/-- What grid point `t` writes back is block `t` of the product of the whole arrays. -/
theorem wrote2 (c : Dev nD) (t : Fin cfg2.N) :
    (dat2 V c).flushed 2 t = ((cfg2.win 2).blk t).view.read (Elt Ideal) (rowsByCols (n := 50000) (k := 96) (p := 40) (V c main_v49) (V c main_v50)) := by
  show (cfg2.win 2).cut (grid2.coords t) ((dat2 V c).after 2 t) = _
  rw [after2_2]
  unfold out2_2
  rw [View.canon_unit_zero zeroOffsets]
  simp only [View.ld_unit_zero (S := S1000x96) zeroOffsets, View.ld_unit_zero (S := S96x40) zeroOffsets]
  obtain ⟨e0, e1, e2, e3, e4, e5⟩ := places2 t
  funext j
  show k2_pay1 (F := Ideal) (iblk2 V c 0 t) (iblk2 V c 1 t) j = rowsByCols (n := 50000) (k := 96) (p := 40) (V c main_v49) (V c main_v50) (((cfg2.win 2).blk t).view.emb j)
  refine (product2_at _ _ j).trans ?_
  unfold rowsByCols
  refine Finset.sum_congr rfl fun k _ => ?_
  have h0 : ((cfg2.win 0).blk t).view.emb (inRow j k) = inRow (((cfg2.win 2).blk t).view.emb j) k := by
    funext a; apply Fin.ext
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 96 + 1 * k.val = k.val; omega
  have h1 : ((cfg2.win 1).blk t).view.emb (inCol j k) = inCol (((cfg2.win 2).blk t).view.emb j) k := by
    funext a; apply Fin.ext
    match a with
    | ⟨0, _⟩ => show win2_1.index t (0 : Fin 2) * 96 + 1 * k.val = k.val; omega
    | ⟨1, _⟩ => show win2_1.index t (1 : Fin 2) * 40 + 1 * (j 1).val = win2_2.index t (1 : Fin 2) * 40 + 1 * (j 1).val; omega
  refine congrArg₂ (· * ·) ?_ ?_
  · show V c main_v49 (((cfg2.win 0).blk t).view.emb (inRow j k)) = V c main_v49 (inRow (((cfg2.win 2).blk t).view.emb j) k)
    rw [h0]
  · show V c main_v50 (((cfg2.win 1).blk t).view.emb (inCol j k)) = V c main_v50 (inCol (((cfg2.win 2).blk t).view.emb j) k)
    rw [h1]

/-- An index of the result is in point `t`'s block iff its row is one of the block's thousand. -/
theorem inBlock2 (t : Fin cfg2.N) (i : S50000x40.Idx) :
    i ∈ ((cfg2.win 2).blk t).view.set ↔ ∀ a : Fin 2, win2_2.index t a * S1000x40.size a ≤ (i a).val ∧ (i a).val < win2_2.index t a * S1000x40.size a + S1000x40.size a := by
  show i ∈ ((View.whole main_v51).slice (win2_2.rect t)).set ↔ _
  rw [View.set_slice_whole, Rect.mem_set_unit]
  exact Iff.rfl

/-- Every index of the result is in some point's block: row r in block r / 1000. -/
theorem tiled2 (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  refine ⟨⟨(i 0).val / 1000, by rw [show cfg2.N = 50 from N_2]; omega⟩, flush2_2 _, ?_⟩
  rw [inBlock2]
  obtain ⟨e0, e1, e2, e3, e4, e5⟩ := places2 ⟨(i 0).val / 1000, by rw [show cfg2.N = 50 from N_2]; omega⟩
  intro a
  match a with
  | ⟨0, _⟩ => show win2_2.index _ (0 : Fin 2) * 1000 ≤ (i 0).val ∧ (i 0).val < win2_2.index _ (0 : Fin 2) * 1000 + 1000; rw [e4]; show (i 0).val / 1000 * 1000 ≤ (i 0).val ∧ (i 0).val < (i 0).val / 1000 * 1000 + 1000; omega
  | ⟨1, _⟩ => show win2_2.index _ (1 : Fin 2) * 40 ≤ (i 1).val ∧ (i 1).val < win2_2.index _ (1 : Fin 2) * 40 + 40; rw [e5]; omega

/-- The result array after the region: the product of the arrays the region found. -/
theorem result2 (c : Dev nD) :
    (dat2 V c).arrAt 2 cfg2.N = rowsByCols (n := 50000) (k := 96) (p := 40) (V c main_v49) (V c main_v50) :=
  (dat2 V c).arrAt_eq_of_cover 2 _ (fun t _ => wrote2 V c t) tiled2

end

end Cert.KernelIdeal.Blocks

end
-- ==== Proof.BlocksRows.lean ====
/-
  The two row-wise kernels, from blocks to arrays.

  Both kernels walk the rows of an array in blocks of 5000: at grid point t they load rows 5000 t … 5000 t + 4999
  and the whole bias vector, and write back the same rows of the result.  The first adds the bias to every row and
  takes the positive part.  The second adds the bias, and from every entry of a row subtracts the row's maximum
  plus the logarithm of the row's sum of exponentials of (entry - maximum).  Either way an entry of the result
  depends on its own row of the operand only, so the blocks written are the blocks of ONE array: the same function
  of the whole operand.  The ten blocks tile the result.
-/
import proofs.«161012_j21045339750898_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Rows

open Idealize.ShloMosaic Idealize.ShloMosaic.ValueIdx

/-- The column of an index, as an index of a vector. -/
abbrev colOf {n f : Nat} (i : (⟨2, ![n, f]⟩ : Shape).Idx) : (⟨1, ![f]⟩ : Shape).Idx :=
  ix1 (n := f) ⟨(i 1).val, (i 1).isLt⟩
/-- The index in the row of `i` at column `c`. -/
abbrev inSameRow {n f : Nat} (i : (⟨2, ![n, f]⟩ : Shape).Idx) (c : Fin f) : (⟨2, ![n, f]⟩ : Shape).Idx :=
  ix2 (n0 := n) (n1 := f) ⟨(i 0).val, (i 0).isLt⟩ c

/-- A vector added to every row. -/
def biased {n f : Nat} (A : (⟨2, ![n, f]⟩ : Shape).Idx → EReal) (b : (⟨1, ![f]⟩ : Shape).Idx → EReal) :
    (⟨2, ![n, f]⟩ : Shape).Idx → EReal := fun i => A i + b (colOf i)
/-- The positive part. -/
def positive {n f : Nat} (Z : (⟨2, ![n, f]⟩ : Shape).Idx → EReal) : (⟨2, ![n, f]⟩ : Shape).Idx → EReal :=
  fun i => max (Z i) 0
/-- The maximum of the row of `i`. -/
def rowTop {n f : Nat} (Z : (⟨2, ![n, f]⟩ : Shape).Idx → EReal) (i : (⟨2, ![n, f]⟩ : Shape).Idx) : EReal :=
  (Finset.univ : Finset (Fin f)).fold max ⊥ (fun c => Z (inSameRow i c))
/-- The logarithm of the row's sum of exponentials of (entry - maximum). -/
def rowLogSum {n f : Nat} (Z : (⟨2, ![n, f]⟩ : Shape).Idx → EReal) (i : (⟨2, ![n, f]⟩ : Shape).Idx) : EReal :=
  Ideal.log (∑ c : Fin f, Ideal.exp (Z (inSameRow i c) - rowTop Z i))
/-- The log-softmax as the kernel groups it: z - (max + log Σ). -/
def logSoftmaxK {n f : Nat} (Z : (⟨2, ![n, f]⟩ : Shape).Idx → EReal) : (⟨2, ![n, f]⟩ : Shape).Idx → EReal :=
  fun i => Z i - (rowTop Z i + rowLogSum Z i)
/-- The log-softmax as the reference groups it: (z - max) - log Σ. -/
def logSoftmaxR {n f : Nat} (Z : (⟨2, ![n, f]⟩ : Shape).Idx → EReal) : (⟨2, ![n, f]⟩ : Shape).Idx → EReal :=
  fun i => (Z i - rowTop Z i) - rowLogSum Z i

/-! An array read through a map of indices that keeps rows together: whatever looks at an entry's own row only
    can be computed before or after the reading. -/
section Local
variable {m n f : Nat} (Zb : (⟨2, ![m, f]⟩ : Shape).Idx → EReal) (Z : (⟨2, ![n, f]⟩ : Shape).Idx → EReal)
  (e : (⟨2, ![m, f]⟩ : Shape).Idx → (⟨2, ![n, f]⟩ : Shape).Idx)
  (hZ : ∀ j, Zb j = Z (e j)) (he : ∀ j c, e (inSameRow j c) = inSameRow (e j) c)
include hZ he

theorem rowTop_local (j : (⟨2, ![m, f]⟩ : Shape).Idx) : rowTop Zb j = rowTop Z (e j) := by
  unfold rowTop
  refine congrArg (Finset.fold max ⊥ · Finset.univ) (funext fun c => ?_)
  rw [hZ, he]

theorem rowLogSum_local (j : (⟨2, ![m, f]⟩ : Shape).Idx) : rowLogSum Zb j = rowLogSum Z (e j) := by
  unfold rowLogSum
  rw [rowTop_local Zb Z e hZ he j]
  refine congrArg Ideal.log (Finset.sum_congr rfl fun c _ => ?_)
  rw [hZ, he]

theorem logSoftmaxK_local (j : (⟨2, ![m, f]⟩ : Shape).Idx) : logSoftmaxK Zb j = logSoftmaxK Z (e j) := by
  unfold logSoftmaxK
  rw [rowTop_local Zb Z e hZ he j, rowLogSum_local Zb Z e hZ he j, hZ]

end Local

end Cert.Gcn.Rows

namespace Cert.KernelIdeal.Blocks

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn.Rows

theorem noOffsets2 : (![0, 0] : Fin 2 → Nat) = fun _ => 0 := funext fun a => by fin_cases a <;> rfl
theorem noOffsets1 : (![0] : Fin 1 → Nat) = fun _ => 0 := funext fun a => by fin_cases a <;> rfl

/-- A vector, made a one-row matrix and spread over the rows, read at an entry: the vector at the entry's column. -/
theorem spreadRow_at {n f : Nat} (hf : f ≠ 1) (v : (⟨1, ![f]⟩ : Shape).Idx → EReal)
    (h : (⟨1, ![f]⟩ : Shape).ShapeCasts ⟨2, ![1, f]⟩) (h' : (⟨2, ![1, f]⟩ : Shape).Broadcasts ⟨2, ![n, f]⟩)
    (j : (⟨2, ![n, f]⟩ : Shape).Idx) :
    broadcastTo ⟨2, ![n, f]⟩ (shapeCast ⟨2, ![1, f]⟩ v h) h' j = v (colOf j) := by
  have e : j = ix2 (n0 := n) (n1 := f) ⟨(j 0).val, (j 0).isLt⟩ ⟨(j 1).val, (j 1).isLt⟩ := by
    funext a; match a with | ⟨0, _⟩ => rfl | ⟨1, _⟩ => rfl
  rw [e]
  exact (broadcastTo_1b_ab_apply _ h' _ _).trans (shapeCast_a_1a_apply v h 0 _)

/-! ## The bias and the positive part, on 96 features -/

/-- The body's arithmetic at an entry. -/
theorem positive_at (x : FVec Ideal S5000x96 .f32) (v : FVec Ideal S96 .f32) (j : S5000x96.Idx) :
    k1_pay1 (F := Ideal) x v j = positive (biased x v) j := by
  unfold k1_pay1 positive biased
  show max ((shapeCast S5000x96 x shapeCasts_S5000x96_S5000x96) j + (broadcastTo S5000x96 (shapeCast S1x96 v shapeCasts_S96_S1x96) broadcasts_S1x96_S5000x96) j) (Ideal.ofBits .f32 0x00000000#32) = _
  rw [shapeCast_self, Ideal.ofBits_zero_f32, spreadRow_at (by decide) v _ _ j]

/-- Where the three windows' blocks sit at every grid point. -/
theorem placesRelu : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0)

section
variable (V : (c : Dev nD) → (b : Ref sig .tc) → Buf (Elt Ideal) ((c : Thread nD τ).loc b))

/-- What grid point `t` writes back is block `t` of the positive part of the biased array. -/
theorem wroteRelu (c : Dev nD) (t : Fin cfg1.N) :
    (dat1 V c).flushed 2 t = ((cfg1.win 2).blk t).view.read (Elt Ideal) (positive (n := 50000) (f := 96) (biased (V c main_v48) (V c main_arg4))) := by
  show (cfg1.win 2).cut (grid1.coords t) ((dat1 V c).after 2 t) = _
  rw [after1_2]
  unfold out1_2
  rw [View.canon_unit_zero noOffsets2]
  simp only [View.ld_unit_zero (S := S5000x96) noOffsets2, View.ld_unit_zero (S := S96) noOffsets1]
  obtain ⟨e0, e1, e2, e3, e4⟩ := placesRelu t
  funext j
  show k1_pay1 (F := Ideal) (iblk1 V c 0 t) (iblk1 V c 1 t) j = positive (n := 50000) (f := 96) (biased (V c main_v48) (V c main_arg4)) (((cfg1.win 2).blk t).view.emb j)
  refine (positive_at _ _ j).trans ?_
  unfold positive biased
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 96 + 1 * (j 1).val = win1_2.index t (1 : Fin 2) * 96 + 1 * (j 1).val; omega
  have h1 : ((cfg1.win 1).blk t).view.emb (colOf j) = colOf (((cfg1.win 2).blk t).view.emb j) := by
    funext a; apply Fin.ext
    match a with
    | ⟨0, _⟩ => show win1_1.index t (0 : Fin 1) * 96 + 1 * (j 1).val = win1_2.index t (1 : Fin 2) * 96 + 1 * (j 1).val; omega
  refine congrArg₂ (fun a b : EReal => max (a + b) 0) ?_ ?_
  · show V c main_v48 (((cfg1.win 0).blk t).view.emb j) = V c main_v48 (((cfg1.win 2).blk t).view.emb j)
    rw [h0]
  · show V c main_arg4 (((cfg1.win 1).blk t).view.emb (colOf j)) = V c main_arg4 (colOf (((cfg1.win 2).blk t).view.emb j))
    rw [h1]

/-- An index of the result is in point `t`'s block iff its row is one of the block's five thousand. -/
theorem inBlockRelu (t : Fin cfg1.N) (i : S50000x96.Idx) :
    i ∈ ((cfg1.win 2).blk t).view.set ↔ ∀ a : Fin 2, win1_2.index t a * S5000x96.size a ≤ (i a).val ∧ (i a).val < win1_2.index t a * S5000x96.size a + S5000x96.size a := by
  show i ∈ ((View.whole main_v49).slice (win1_2.rect t)).set ↔ _
  rw [View.set_slice_whole, Rect.mem_set_unit]
  exact Iff.rfl

/-- Every index of the result is in some point's block: row r in block r / 5000. -/
theorem tiledRelu (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  refine ⟨⟨(i 0).val / 5000, by rw [show cfg1.N = 10 from N_1]; omega⟩, flush1_2 _, ?_⟩
  rw [inBlockRelu]
  obtain ⟨e0, e1, e2, e3, e4⟩ := placesRelu ⟨(i 0).val / 5000, by rw [show cfg1.N = 10 from N_1]; omega⟩
  intro a
  match a with
  | ⟨0, _⟩ => show win1_2.index _ (0 : Fin 2) * 5000 ≤ (i 0).val ∧ (i 0).val < win1_2.index _ (0 : Fin 2) * 5000 + 5000; rw [e3]; show (i 0).val / 5000 * 5000 ≤ (i 0).val ∧ (i 0).val < (i 0).val / 5000 * 5000 + 5000; omega
  | ⟨1, _⟩ => show win1_2.index _ (1 : Fin 2) * 96 ≤ (i 1).val ∧ (i 1).val < win1_2.index _ (1 : Fin 2) * 96 + 96; rw [e4]; omega

/-- The result array after the region: the positive part of the array the region found, biased. -/
theorem resultRelu (c : Dev nD) :
    (dat1 V c).arrAt 2 cfg1.N = positive (n := 50000) (f := 96) (biased (V c main_v48) (V c main_arg4)) :=
  (dat1 V c).arrAt_eq_of_cover 2 _ (fun t _ => wroteRelu V c t) tiledRelu

end

/-! ## The bias and the log-softmax, on 40 features -/

/-- The word the maximum starts from is minus infinity. -/
theorem negInf : Ideal.ofBits .f32 0xFF800000#32 = (⊥ : EReal) := by simp [Ideal.ofBits, Ideal.ieee]

/-- A one-column matrix spread over the lanes, read at an entry: the column at the entry's row. -/
theorem spreadCol_at (w : S5000x1.Idx → EReal) (j : S5000x40.Idx) :
    broadcastTo S5000x40 w broadcasts_S5000x1_S5000x40 j = w (ix2 (n0 := 5000) (n1 := 1) ⟨(j 0).val, (j 0).isLt⟩ 0) := by
  refine broadcastTo_apply w broadcasts_S5000x1_S5000x40 j _ fun ax => ?_
  match ax with
  | ⟨0, _⟩ => rfl
  | ⟨1, _⟩ => rfl

/-- A vector made a one-column matrix, read at (r, 0): the vector at r. -/
theorem asCol_at (u : S5000.Idx → EReal) (r : Fin 5000) :
    shapeCast S5000x1 u shapeCasts_S5000_S5000x1 (ix2 (n0 := 5000) (n1 := 1) r 0) = u (ix1 r) :=
  shapeCast_apply u shapeCasts_S5000_S5000x1 _ _ (by
    rw [Shape.rowMajor_val_two, Shape.rowMajor_val_one]
    show r.val = r.val * 1 + 0
    omega)

/-- The lane maximum at a row: the fold of max from minus infinity over the row. -/
theorem laneMax_at (z : FVec Ideal S5000x40 .f32) (r : Fin 5000) :
    multiReduction .maximumf [1] S5000 z 0xFF800000#32 reduces_S5000x40_S5000 (.inl rfl) rfl (ix1 r)
      = (Finset.univ : Finset (Fin 40)).fold max ⊥ (fun k => z (ix2 (n0 := 5000) (n1 := 40) r k)) := by
  refine (Ideal.multiReduction_maximumf_single z 0xFF800000#32 reduces_S5000x40_S5000 (.inl rfl) rfl (ix1 r)).trans ?_
  show (Finset.univ : Finset (Fin 40)).fold max (Ideal.ofBits .f32 0xFF800000#32) (z ∘ reduces_S5000x40_S5000.lift (ix1 r)) = _
  rw [negInf]
  refine congrArg (Finset.fold max ⊥ · Finset.univ) (funext fun k => congrArg z (funext fun a => Fin.ext ?_))
  match a with
  | ⟨0, _⟩ => rfl
  | ⟨1, _⟩ => rfl

/-- The lane sum at a row. -/
theorem laneSum_at (z : FVec Ideal S5000x40 .f32) (r : Fin 5000) :
    multiReduction .add [1] S5000 z 0x00000000#32 reduces_S5000x40_S5000 (.inl rfl) rfl (ix1 r)
      = ∑ k : Fin 40, z (ix2 (n0 := 5000) (n1 := 40) r k) := by
  refine (Ideal.multiReduction_add_single z 0x00000000#32 reduces_S5000x40_S5000 (.inl rfl) rfl (ix1 r)).trans ?_
  show ∑ k : Fin 40, z (reduces_S5000x40_S5000.lift (ix1 r) k) = _
  refine Finset.sum_congr rfl fun k _ => congrArg z (funext fun a => Fin.ext ?_)
  match a with
  | ⟨0, _⟩ => rfl
  | ⟨1, _⟩ => rfl

/-- The body's arithmetic after the bias, at an entry: the entry minus (the row's maximum plus the logarithm of the
    row's sum of exponentials). -/
theorem softmaxTail_at (Z : FVec Ideal S5000x40 .f32) (j : S5000x40.Idx) :
    subf Z (broadcastTo S5000x40 (addf (shapeCast S5000x1 (multiReduction .maximumf [1] S5000 Z 0xFF800000#32 reduces_S5000x40_S5000 (.inl rfl) rfl) shapeCasts_S5000_S5000x1)
      (log (shapeCast S5000x1 (multiReduction .add [1] S5000 (exp (subf Z (broadcastTo S5000x40 (shapeCast S5000x1 (multiReduction .maximumf [1] S5000 Z 0xFF800000#32 reduces_S5000x40_S5000 (.inl rfl) rfl) shapeCasts_S5000_S5000x1) broadcasts_S5000x1_S5000x40))) 0x00000000#32 reduces_S5000x40_S5000 (.inl rfl) rfl) shapeCasts_S5000_S5000x1))) broadcasts_S5000x1_S5000x40) j
      = logSoftmaxK (n := 5000) (f := 40) Z j := by
  have hM : ∀ i : S5000x40.Idx, broadcastTo S5000x40 (shapeCast S5000x1 (multiReduction .maximumf [1] S5000 Z 0xFF800000#32 reduces_S5000x40_S5000 (.inl rfl) rfl) shapeCasts_S5000_S5000x1) broadcasts_S5000x1_S5000x40 i = rowTop (n := 5000) (f := 40) Z i := fun i => by
    rw [spreadCol_at, asCol_at, laneMax_at]
    rfl
  have hS : ∀ r : Fin 5000, multiReduction .add [1] S5000 (exp (subf Z (broadcastTo S5000x40 (shapeCast S5000x1 (multiReduction .maximumf [1] S5000 Z 0xFF800000#32 reduces_S5000x40_S5000 (.inl rfl) rfl) shapeCasts_S5000_S5000x1) broadcasts_S5000x1_S5000x40))) 0x00000000#32 reduces_S5000x40_S5000 (.inl rfl) rfl (ix1 r)
      = ∑ k : Fin 40, Ideal.exp (Z (ix2 (n0 := 5000) (n1 := 40) r k) - rowTop (n := 5000) (f := 40) Z (ix2 (n0 := 5000) (n1 := 40) r k)) := fun r => by
    rw [laneSum_at]
    refine Finset.sum_congr rfl fun k _ => ?_
    show Ideal.exp (Z (ix2 r k) - broadcastTo S5000x40 (shapeCast S5000x1 (multiReduction .maximumf [1] S5000 Z 0xFF800000#32 reduces_S5000x40_S5000 (.inl rfl) rfl) shapeCasts_S5000_S5000x1) broadcasts_S5000x1_S5000x40 (ix2 r k)) = _
    rw [hM]
  show Z j - broadcastTo S5000x40 (addf (shapeCast S5000x1 (multiReduction .maximumf [1] S5000 Z 0xFF800000#32 reduces_S5000x40_S5000 (.inl rfl) rfl) shapeCasts_S5000_S5000x1)
      (log (shapeCast S5000x1 (multiReduction .add [1] S5000 (exp (subf Z (broadcastTo S5000x40 (shapeCast S5000x1 (multiReduction .maximumf [1] S5000 Z 0xFF800000#32 reduces_S5000x40_S5000 (.inl rfl) rfl) shapeCasts_S5000_S5000x1) broadcasts_S5000x1_S5000x40))) 0x00000000#32 reduces_S5000x40_S5000 (.inl rfl) rfl) shapeCasts_S5000_S5000x1))) broadcasts_S5000x1_S5000x40 j = _
  rw [spreadCol_at]
  show Z j - (shapeCast S5000x1 (multiReduction .maximumf [1] S5000 Z 0xFF800000#32 reduces_S5000x40_S5000 (.inl rfl) rfl) shapeCasts_S5000_S5000x1 (ix2 (n0 := 5000) (n1 := 1) ⟨(j 0).val, (j 0).isLt⟩ 0)
      + Ideal.log (shapeCast S5000x1 (multiReduction .add [1] S5000 (exp (subf Z (broadcastTo S5000x40 (shapeCast S5000x1 (multiReduction .maximumf [1] S5000 Z 0xFF800000#32 reduces_S5000x40_S5000 (.inl rfl) rfl) shapeCasts_S5000_S5000x1) broadcasts_S5000x1_S5000x40))) 0x00000000#32 reduces_S5000x40_S5000 (.inl rfl) rfl) shapeCasts_S5000_S5000x1 (ix2 (n0 := 5000) (n1 := 1) ⟨(j 0).val, (j 0).isLt⟩ 0))) = _
  rw [asCol_at, asCol_at, laneMax_at, hS]
  rfl

/-- The body's arithmetic at an entry. -/
theorem logSoftmax_at (x : FVec Ideal S5000x40 .f32) (v : FVec Ideal S40 .f32) (j : S5000x40.Idx) :
    k3_pay1 (F := Ideal) x v j = logSoftmaxK (biased x v) j := by
  have hZ : addf (shapeCast S5000x40 x shapeCasts_S5000x40_S5000x40) (broadcastTo S5000x40 (shapeCast S1x40 v shapeCasts_S40_S1x40) broadcasts_S1x40_S5000x40)
      = biased (n := 5000) (f := 40) x v := by
    funext i
    show (shapeCast S5000x40 x shapeCasts_S5000x40_S5000x40) i + (broadcastTo S5000x40 (shapeCast S1x40 v shapeCasts_S40_S1x40) broadcasts_S1x40_S5000x40) i = x i + v (colOf i)
    rw [shapeCast_self, spreadRow_at (by decide) v _ _ i]
  unfold k3_pay1
  rw [hZ]
  exact softmaxTail_at _ j

/-- Where the three windows' blocks sit at every grid point. -/
theorem placesLsm : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0)

section
variable (V : (c : Dev nD) → (b : Ref sig .tc) → Buf (Elt Ideal) ((c : Thread nD τ).loc b))

/-- What grid point `t` writes back is block `t` of the log-softmax of the biased array: an entry looks at its own
    row only, and a block holds whole rows. -/
theorem wroteLsm (c : Dev nD) (t : Fin cfg3.N) :
    (dat3 V c).flushed 2 t = ((cfg3.win 2).blk t).view.read (Elt Ideal) (logSoftmaxK (n := 50000) (f := 40) (biased (V c main_v64) (V c main_arg6))) := by
  show (cfg3.win 2).cut (grid3.coords t) ((dat3 V c).after 2 t) = _
  rw [after3_2]
  unfold out3_2
  rw [View.canon_unit_zero noOffsets2]
  simp only [View.ld_unit_zero (S := S5000x40) noOffsets2, View.ld_unit_zero (S := S40) noOffsets1]
  obtain ⟨e0, e1, e2, e3, e4⟩ := placesLsm t
  funext j
  show k3_pay1 (F := Ideal) (iblk3 V c 0 t) (iblk3 V c 1 t) j = logSoftmaxK (n := 50000) (f := 40) (biased (V c main_v64) (V c main_arg6)) (((cfg3.win 2).blk t).view.emb j)
  refine (logSoftmax_at _ _ j).trans ?_
  refine logSoftmaxK_local (m := 5000) (n := 50000) (f := 40) (biased (iblk3 V c 0 t) (iblk3 V c 1 t)) (biased (V c main_v64) (V c main_arg6))
    (fun y => ((cfg3.win 2).blk t).view.emb y) (fun y => ?_) (fun y k => ?_) j
  · unfold biased
    have h0 : ((cfg3.win 0).blk t).view.emb y = ((cfg3.win 2).blk t).view.emb y := by
      funext a; apply Fin.ext
      match a with
      | ⟨0, _⟩ => show win3_0.index t (0 : Fin 2) * 5000 + 1 * (y 0).val = win3_2.index t (0 : Fin 2) * 5000 + 1 * (y 0).val; omega
      | ⟨1, _⟩ => show win3_0.index t (1 : Fin 2) * 40 + 1 * (y 1).val = win3_2.index t (1 : Fin 2) * 40 + 1 * (y 1).val; omega
    have h1 : ((cfg3.win 1).blk t).view.emb (colOf y) = colOf (((cfg3.win 2).blk t).view.emb y) := by
      funext a; apply Fin.ext
      match a with
      | ⟨0, _⟩ => show win3_1.index t (0 : Fin 1) * 40 + 1 * (y 1).val = win3_2.index t (1 : Fin 2) * 40 + 1 * (y 1).val; omega
    refine congrArg₂ (fun a b : EReal => a + b) ?_ ?_
    · show V c main_v64 (((cfg3.win 0).blk t).view.emb y) = V c main_v64 (((cfg3.win 2).blk t).view.emb y)
      rw [h0]
    · show V c main_arg6 (((cfg3.win 1).blk t).view.emb (colOf y)) = V c main_arg6 (colOf (((cfg3.win 2).blk t).view.emb y))
      rw [h1]
  · funext a; apply Fin.ext
    match a with
    | ⟨0, _⟩ => show win3_2.index t (0 : Fin 2) * 5000 + 1 * (y 0).val = win3_2.index t (0 : Fin 2) * 5000 + 1 * (y 0).val; rfl
    | ⟨1, _⟩ => show win3_2.index t (1 : Fin 2) * 40 + 1 * k.val = k.val; omega

/-- An index of the result is in point `t`'s block iff its row is one of the block's five thousand. -/
theorem inBlockLsm (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v65).slice (win3_2.rect t)).set ↔ _
  rw [View.set_slice_whole, Rect.mem_set_unit]
  exact Iff.rfl

/-- Every index of the result is in some point's block: row r in block r / 5000. -/
theorem tiledLsm (i : S50000x40.Idx) : ∃ t : Fin cfg3.N, (cfg3.win 2).flush t = true ∧ i ∈ ((cfg3.win 2).blk t).view.set := by
  have hi0 : (i 0).val < 50000 := (i 0).isLt
  have hi1 : (i 1).val < 40 := (i 1).isLt
  refine ⟨⟨(i 0).val / 5000, by rw [show cfg3.N = 10 from N_3]; omega⟩, flush3_2 _, ?_⟩
  rw [inBlockLsm]
  obtain ⟨e0, e1, e2, e3, e4⟩ := placesLsm ⟨(i 0).val / 5000, by rw [show cfg3.N = 10 from N_3]; omega⟩
  intro a
  match a with
  | ⟨0, _⟩ => show win3_2.index _ (0 : Fin 2) * 5000 ≤ (i 0).val ∧ (i 0).val < win3_2.index _ (0 : Fin 2) * 5000 + 5000; rw [e3]; show (i 0).val / 5000 * 5000 ≤ (i 0).val ∧ (i 0).val < (i 0).val / 5000 * 5000 + 5000; omega
  | ⟨1, _⟩ => show win3_2.index _ (1 : Fin 2) * 40 ≤ (i 1).val ∧ (i 1).val < win3_2.index _ (1 : Fin 2) * 40 + 40; rw [e4]; omega

/-- The result array after the region: the log-softmax of the array the region found, biased. -/
theorem resultLsm (c : Dev nD) :
    (dat3 V c).arrAt 2 cfg3.N = logSoftmaxK (n := 50000) (f := 40) (biased (V c main_v64) (V c main_arg6)) :=
  (dat3 V c).arrAt_eq_of_cover 2 _ (fun t _ => wroteLsm V c t) tiledLsm

end

end Cert.KernelIdeal.Blocks

end
-- ==== Proof.RefForms.lean ====
/-
  The reference's dense steps, read index by index on the extended reals.

  The host's contraction of a matrix with a transposed weight is rows times columns.  The bias broadcast over the
  rows, the maximum with zero, and the reference's log-softmax — the row maximum as a fold of max from minus
  infinity, the row sum of exponentials, the logarithm — are, entry by entry, the row functions the kernels'
  blocks were read as.  The reference groups the log-softmax as (z - max) - log Σ.
-/
import proofs.«161012_j21045339750898_1_alg».proof.Proof.Spec
import proofs.«161012_j21045339750898_1_alg».proof.Proof.BlocksProduct
import proofs.«161012_j21045339750898_1_alg».proof.Proof.BlocksRows

set_option maxRecDepth 16384

noncomputable section

open scoped BigOperators

namespace Cert.Gcn.Forms

open Cert.ReferenceIdeal Cert.ReferenceIdeal.Facts₀ Idealize.ShloMosaic Idealize.ShloMosaic.ValueIdx
open Cert.Gcn.Product Cert.Gcn.Rows

/-! ## The projections -/

theorem dotA_lhs0 (i : S50000x96.Idx) (q : dot_S50000x256_S256x96_S50000x96_1_0_0_1_n_n.contr.Idx) : (dot_S50000x256_S256x96_S50000x96_1_0_0_1_n_n.lhsIdx i q 0).val = (i 0).val := by
  unfold DotDims.lhsIdx
  rw [dif_neg (show ¬(0 : Fin S50000x256.rank) ∈ dot_S50000x256_S256x96_S50000x96_1_0_0_1_n_n.lhsBatch by decide), dif_pos (show (0 : Fin S50000x256.rank) ∈ dot_S50000x256_S256x96_S50000x96_1_0_0_1_n_n.lhsNonContracting by decide)]
  rfl
theorem dotA_rhs1 (i : S50000x96.Idx) (q : dot_S50000x256_S256x96_S50000x96_1_0_0_1_n_n.contr.Idx) : (dot_S50000x256_S256x96_S50000x96_1_0_0_1_n_n.rhsIdx i q 1).val = (i 1).val := by
  unfold DotDims.rhsIdx
  rw [dif_neg (show ¬(1 : Fin S256x96.rank) ∈ dot_S50000x256_S256x96_S50000x96_1_0_0_1_n_n.rhsBatch by decide), dif_pos (show (1 : Fin S256x96.rank) ∈ dot_S50000x256_S256x96_S50000x96_1_0_0_1_n_n.rhsNonContracting by decide)]
  rfl

/-- The host's contraction is rows times columns. -/
theorem project1_eq (x : (⟨S50000x256, .f32⟩ : BufTy).Contents (Elt Ideal)) (wt : (⟨S256x96, .f32⟩ : BufTy).Contents (Elt Ideal)) :
    Cert.Gcn.project1 (F := Ideal) x wt = rowsByCols (n := 50000) (k := 256) (p := 96) x wt := by
  funext i
  unfold Cert.Gcn.project1 rowsByCols
  simp only [Host.dotGeneral]
  rw [Ideal.dotGeneral_apply, ← Equiv.sum_comp (contrEquiv1 dot_S50000x256_S256x96_S50000x96_1_0_0_1_n_n 256 rfl rfl).symm]
  refine Finset.sum_congr rfl fun c _ => ?_
  have hc := contrEquiv1_symm_val dot_S50000x256_S256x96_S50000x96_1_0_0_1_n_n 256 rfl rfl c
  have el : dot_S50000x256_S256x96_S50000x96_1_0_0_1_n_n.lhsIdx i ((contrEquiv1 dot_S50000x256_S256x96_S50000x96_1_0_0_1_n_n 256 rfl rfl).symm c) = inRow i c := funext fun a => Fin.ext (by
    match a with
    | ⟨0, _⟩ => exact dotA_lhs0 _ _
    | ⟨1, _⟩ => exact (dot_S50000x256_S256x96_S50000x96_1_0_0_1_n_n.lhsIdx_val_of_single rfl i _).trans hc)
  have er : dot_S50000x256_S256x96_S50000x96_1_0_0_1_n_n.rhsIdx i ((contrEquiv1 dot_S50000x256_S256x96_S50000x96_1_0_0_1_n_n 256 rfl rfl).symm c) = inCol i c := funext fun a => Fin.ext (by
    match a with
    | ⟨0, _⟩ => exact (dot_S50000x256_S256x96_S50000x96_1_0_0_1_n_n.rhsIdx_val_of_single rfl i _).trans hc
    | ⟨1, _⟩ => exact dotA_rhs1 _ _)
  rw [el, er]

theorem dotB_lhs0 (i : S50000x40.Idx) (q : dot_S50000x96_S96x40_S50000x40_1_0_0_1_n_n.contr.Idx) : (dot_S50000x96_S96x40_S50000x40_1_0_0_1_n_n.lhsIdx i q 0).val = (i 0).val := by
  unfold DotDims.lhsIdx
  rw [dif_neg (show ¬(0 : Fin S50000x96.rank) ∈ dot_S50000x96_S96x40_S50000x40_1_0_0_1_n_n.lhsBatch by decide), dif_pos (show (0 : Fin S50000x96.rank) ∈ dot_S50000x96_S96x40_S50000x40_1_0_0_1_n_n.lhsNonContracting by decide)]
  rfl
theorem dotB_rhs1 (i : S50000x40.Idx) (q : dot_S50000x96_S96x40_S50000x40_1_0_0_1_n_n.contr.Idx) : (dot_S50000x96_S96x40_S50000x40_1_0_0_1_n_n.rhsIdx i q 1).val = (i 1).val := by
  unfold DotDims.rhsIdx
  rw [dif_neg (show ¬(1 : Fin S96x40.rank) ∈ dot_S50000x96_S96x40_S50000x40_1_0_0_1_n_n.rhsBatch by decide), dif_pos (show (1 : Fin S96x40.rank) ∈ dot_S50000x96_S96x40_S50000x40_1_0_0_1_n_n.rhsNonContracting by decide)]
  rfl

/-- The host's contraction is rows times columns. -/
theorem project2_eq (x : (⟨S50000x96, .f32⟩ : BufTy).Contents (Elt Ideal)) (wt : (⟨S96x40, .f32⟩ : BufTy).Contents (Elt Ideal)) :
    Cert.Gcn.project2 (F := Ideal) x wt = rowsByCols (n := 50000) (k := 96) (p := 40) x wt := by
  funext i
  unfold Cert.Gcn.project2 rowsByCols
  simp only [Host.dotGeneral]
  rw [Ideal.dotGeneral_apply, ← Equiv.sum_comp (contrEquiv1 dot_S50000x96_S96x40_S50000x40_1_0_0_1_n_n 96 rfl rfl).symm]
  refine Finset.sum_congr rfl fun c _ => ?_
  have hc := contrEquiv1_symm_val dot_S50000x96_S96x40_S50000x40_1_0_0_1_n_n 96 rfl rfl c
  have el : dot_S50000x96_S96x40_S50000x40_1_0_0_1_n_n.lhsIdx i ((contrEquiv1 dot_S50000x96_S96x40_S50000x40_1_0_0_1_n_n 96 rfl rfl).symm c) = inRow i c := funext fun a => Fin.ext (by
    match a with
    | ⟨0, _⟩ => exact dotB_lhs0 _ _
    | ⟨1, _⟩ => exact (dot_S50000x96_S96x40_S50000x40_1_0_0_1_n_n.lhsIdx_val_of_single rfl i _).trans hc)
  have er : dot_S50000x96_S96x40_S50000x40_1_0_0_1_n_n.rhsIdx i ((contrEquiv1 dot_S50000x96_S96x40_S50000x40_1_0_0_1_n_n 96 rfl rfl).symm c) = inCol i c := funext fun a => Fin.ext (by
    match a with
    | ⟨0, _⟩ => exact (dot_S50000x96_S96x40_S50000x40_1_0_0_1_n_n.rhsIdx_val_of_single rfl i _).trans hc
    | ⟨1, _⟩ => exact dotB_rhs1 _ _)
  rw [el, er]

/-! ## The bias -/

theorem bias96_at (b : (⟨S96, .f32⟩ : BufTy).Contents (Elt Ideal)) (i : S50000x96.Idx) :
    broadcastInDim S50000x96 ![0, 1] bcast_S1x96_S50000x96_0_1 (broadcastInDim S1x96 ![1] bcast_S96_S1x96_1 b) i = b (colOf i) :=
  (broadcastInDim_apply ![0, 1] bcast_S1x96_S50000x96_0_1 _ i (ix2 (n0 := 1) (n1 := 96) 0 ⟨(i 1).val, (i 1).isLt⟩)
      (fun a => by match a with | ⟨0, _⟩ => rfl | ⟨1, _⟩ => rfl)).trans
    (broadcastInDim_apply ![1] bcast_S96_S1x96_1 b _ (colOf i) (fun a => by match a with | ⟨0, _⟩ => rfl))

theorem bias40_at (b : (⟨S40, .f32⟩ : BufTy).Contents (Elt Ideal)) (i : S50000x40.Idx) :
    broadcastInDim S50000x40 ![0, 1] bcast_S1x40_S50000x40_0_1 (broadcastInDim S1x40 ![1] bcast_S40_S1x40_1 b) i = b (colOf i) :=
  (broadcastInDim_apply ![0, 1] bcast_S1x40_S50000x40_0_1 _ i (ix2 (n0 := 1) (n1 := 40) 0 ⟨(i 1).val, (i 1).isLt⟩)
      (fun a => by match a with | ⟨0, _⟩ => rfl | ⟨1, _⟩ => rfl)).trans
    (broadcastInDim_apply ![1] bcast_S40_S1x40_1 b _ (colOf i) (fun a => by match a with | ⟨0, _⟩ => rfl))

theorem addBias96_eq (a : (⟨S50000x96, .f32⟩ : BufTy).Contents (Elt Ideal)) (b : (⟨S96, .f32⟩ : BufTy).Contents (Elt Ideal)) :
    Cert.Gcn.addBias96 (F := Ideal) a b = biased (n := 50000) (f := 96) a b := by
  funext i
  unfold Cert.Gcn.addBias96 biased
  show a i + _ = _
  rw [bias96_at]

theorem addBias40_eq (a : (⟨S50000x40, .f32⟩ : BufTy).Contents (Elt Ideal)) (b : (⟨S40, .f32⟩ : BufTy).Contents (Elt Ideal)) :
    Cert.Gcn.addBias40 (F := Ideal) a b = biased (n := 50000) (f := 40) a b := by
  funext i
  unfold Cert.Gcn.addBias40 biased
  show a i + _ = _
  rw [bias40_at]

/-! ## The positive part -/

theorem relu_eq (z : (⟨S50000x96, .f32⟩ : BufTy).Contents (Elt Ideal)) :
    Cert.Gcn.relu (F := Ideal) z = positive (n := 50000) (f := 96) z := by
  funext i
  unfold Cert.Gcn.relu positive
  show max (z i) (Ideal.ofBits .f32 0x00000000#32) = _
  rw [Ideal.ofBits_zero_f32]

/-! ## The log-softmax

    The host's max-reduction is a fold over all two million entries of the array; at a row it is the fold of
    max over the row's forty entries, and the host's sum likewise the sum of the row's forty. -/

theorem minusInf : Ideal.ofBits .f32 0xFF800000#32 = (⊥ : EReal) := by simp [Ideal.ofBits, Ideal.ieee]

theorem laneReduces : S50000x40.Reduces [1] S50000 := by decide

/-- A constant spread over a vector, read anywhere. -/
theorem splat_at (w : BitVec 32) (j : S50000.Idx) :
    broadcastInDim S50000 ![] bcast_S_S50000 (constant (F := Ideal) S_ .f32 w) j = Ideal.ofBits .f32 w := rfl

/-- A one-column matrix spread over the lanes, read at an entry. -/
theorem lanes_at (w : (⟨S50000x1, .f32⟩ : BufTy).Contents (Elt Ideal)) (i : S50000x40.Idx) :
    broadcastInDim S50000x40 ![0, 1] bcast_S50000x1_S50000x40_0_1 w i = w (ix2 (n0 := 50000) (n1 := 1) ⟨(i 0).val, (i 0).isLt⟩ 0) :=
  broadcastInDim_apply ![0, 1] bcast_S50000x1_S50000x40_0_1 w i _ (fun a => by match a with | ⟨0, _⟩ => rfl | ⟨1, _⟩ => rfl)

/-- A vector as a one-column matrix, read at (r, 0). -/
theorem column_at (u : (⟨S50000, .f32⟩ : BufTy).Contents (Elt Ideal)) (r : Fin 50000) :
    broadcastInDim S50000x1 ![0] bcast_S50000_S50000x1_0 u (ix2 (n0 := 50000) (n1 := 1) r 0) = u (ix1 r) :=
  broadcastInDim_apply ![0] bcast_S50000_S50000x1_0 u _ (ix1 r) (fun a => by match a with | ⟨0, _⟩ => rfl)

theorem hostLog_at {s : Shape} (w : FVec Ideal s .f32) (j : s.Idx) : Host.log w j = Ideal.log (w j) := rfl
theorem hostExp_at {s : Shape} (w : FVec Ideal s .f32) (j : s.Idx) : Host.exp w j = Ideal.exp (w j) := rfl

/-- The index the lane reduction reads at row r, lane k. -/
theorem lane_at (i : S50000x40.Idx) (k : Fin 40) :
    laneReduces.lift (ix1 (n := 50000) ⟨(i 0).val, (i 0).isLt⟩) k = inSameRow i k := by
  funext a; apply Fin.ext
  match a with
  | ⟨0, _⟩ => rfl
  | ⟨1, _⟩ => rfl

/-- The host's max-reduction of a row, from minus infinity: the fold of max over the row. -/
theorem reduceMax_at (z : (⟨S50000x40, .f32⟩ : BufTy).Contents (Elt Ideal)) (r : S50000.Idx) :
    Host.reduce FloatOps.maximumf z (constant (F := Ideal) S_ .f32 0xFF800000#32) reducesTo_S50000x40_S50000_d1 h_S_ r
      = (Finset.univ : Finset (Fin 40)).fold max ⊥ (fun k => z (laneReduces.lift r k)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have h := Host.reduce_eq_fold_single FloatOps.maximumf z (constant (F := Ideal) S_ .f32 0xFF800000#32) reducesTo_S50000x40_S50000_d1 laneReduces h_S_ r
  refine h.trans ?_
  show (Finset.univ : Finset (Fin 40)).fold max (Ideal.ofBits .f32 0xFF800000#32) (z ∘ laneReduces.lift r) = _
  rw [minusInf]
  rfl

/-- The host's sum of a row, from zero. -/
theorem reduceAdd_at (x : (⟨S50000x40, .f32⟩ : BufTy).Contents (Elt Ideal)) (r : S50000.Idx) :
    Host.reduceAdd x (constant (F := Ideal) S_ .f32 0x00000000#32) reducesTo_S50000x40_S50000_d1 h_S_ r
      = ∑ k : Fin 40, x (laneReduces.lift r k) := by
  show Ideal.hostReduceAdd reducesTo_S50000x40_S50000_d1 x (Ideal.ofBits .f32 0x00000000#32) r = _
  rw [Ideal.hostReduceAdd_single reducesTo_S50000x40_S50000_d1 laneReduces, Ideal.ofBits_zero_f32, zero_add]
  rfl

/-- The reference's row maximum. -/
theorem rowMax_at (z : (⟨S50000x40, .f32⟩ : BufTy).Contents (Elt Ideal)) (i : S50000x40.Idx) :
    Cert.Gcn.rowMax (F := Ideal) z (ix1 (n := 50000) ⟨(i 0).val, (i 0).isLt⟩) = rowTop (n := 50000) (f := 40) z i := by
  unfold Cert.Gcn.rowMax rowTop
  rw [maximumf_apply, reduceMax_at, splat_at, minusInf, max_eq_right bot_le]
  exact congrArg (Finset.fold max ⊥ · Finset.univ) (funext fun k => congrArg z (lane_at i k))

/-- The reference's shifted logits. -/
theorem shifted_at (z : (⟨S50000x40, .f32⟩ : BufTy).Contents (Elt Ideal)) (i : S50000x40.Idx) :
    Cert.Gcn.shifted (F := Ideal) z i = z i - rowTop (n := 50000) (f := 40) z i := by
  unfold Cert.Gcn.shifted
  rw [subf_apply, lanes_at, column_at, rowMax_at]

/-- The reference's log-softmax, entry by entry. -/
theorem logSoftmax_eq (z : (⟨S50000x40, .f32⟩ : BufTy).Contents (Elt Ideal)) :
    Cert.Gcn.logSoftmax (F := Ideal) z = logSoftmaxR (n := 50000) (f := 40) z := by
  funext i
  unfold Cert.Gcn.logSoftmax logSoftmaxR rowLogSum
  rw [subf_apply, shifted_at, lanes_at, hostLog_at, column_at, reduceAdd_at]
  refine congrArg (fun s : EReal => z i - rowTop z i - Ideal.log s) (Finset.sum_congr rfl fun k _ => ?_)
  rw [hostExp_at]
  refine (congrArg (fun j => Ideal.exp (Cert.Gcn.shifted (F := Ideal) z j)) (lane_at i k)).trans ?_
  show Ideal.exp (Cert.Gcn.shifted (F := Ideal) z (inSameRow i k)) = _
  rw [shifted_at]
  rfl

end Cert.Gcn.Forms

end
-- ==== Proof.KernelValue.lean ====
/-
  What the idealized kernel's result array holds after the run.

  The buffers' contents at the ten boundaries of @main are followed from the launch to the return.  A stretch of
  host operations is read like the reference's: the buffers it writes hold the specification's function for that
  step of what the stretch found.  A region replaces its output array by ONE array, the whole-array function its
  blocks were read as — rows times columns for the projections, the positive part of the biased array, the
  log-softmax of the biased array — and leaves every other buffer as it found it.  Whatever a later stretch reads
  is carried along.  At the return the result array is the kernel's grouping of the log-softmax,
  z - (max + log Σ), of the second layer's biased output; everything below that last step is, term for term, the
  reference's network.
-/
import proofs.«161012_j21045339750898_1_alg».proof.Proof.KernelRun
import proofs.«161012_j21045339750898_1_alg».proof.Proof.RefForms

set_option maxRecDepth 16384

noncomputable section

namespace Cert.KernelIdeal.Whole

open Idealize.ShloMosaic Idealize.ShloMosaic.TcCoe Idealize.SL.Sem
open Cert.KernelIdeal Cert.KernelIdeal.Gen

theorem ofBuf_toBuf {T : BufTy} {Val : EltTy → Type} (x : StableHlo.TRef sig T) (v : T.Contents Val) : x.ofBuf (x.toBuf v) = v := by
  obtain ⟨r, h, h2, h3⟩ := x
  subst h
  rfl
theorem toBuf_v17 (v : (⟨S50000, .f32⟩ : BufTy).Contents (Elt Ideal)) :
    (StableHlo.TRef.of (T := ⟨S50000, .f32⟩) main_v17 : StableHlo.TRef sig _).toBuf v = v := rfl
theorem ofBuf_v14 (v : (⟨S50000, .i1⟩ : BufTy).Contents (Elt Ideal)) :
    (StableHlo.TRef.of (T := ⟨S50000, .i1⟩) main_v14 : StableHlo.TRef sig _).ofBuf v = v := rfl
theorem ofBuf_v16 (v : (⟨S50000, .f32⟩ : BufTy).Contents (Elt Ideal)) :
    (StableHlo.TRef.of (T := ⟨S50000, .f32⟩) main_v16 : StableHlo.TRef sig _).ofBuf v = v := rfl
theorem ofBuf_cst_4 (v : (⟨S_, .f32⟩ : BufTy).Contents (Elt Ideal)) :
    (StableHlo.TRef.of (T := ⟨S_, .f32⟩) main_cst_4 : StableHlo.TRef sig _).ofBuf v = v := rfl

variable (m : (ℓ : Loc nD τ sig) → Buf (Elt Ideal) ℓ) (ρ : Dev nD → PrngReg) (c : Dev nD)

/-- The buffers at launch, and after the two stretches that end with the inverse square roots of the degrees. -/
def launch : Valuation τ sig (Elt Ideal) := W0 m ρ c
def early : Valuation τ sig (Elt Ideal) := StableHlo.after hostOps0_1 (StableHlo.after hostOps0 (launch m ρ c))

/-! ### Before the first region: the edges, the degrees, the norms, the first weight transposed -/
set_option maxHeartbeats 4000000 in
theorem early_v5 : early m ρ c (Proc.devRef .tc main_v5) = Cert.Gcn.sources (F := Ideal) (m ((c : Thread nD τ).loc main_arg1)) := by
  show StableHlo.after hostOps0_1 (StableHlo.after hostOps0 (launch m ρ c)) (Proc.devRef .tc main_v5) = _
  after_results
  all_goals (try simp only [ofBuf_toBuf, toBuf_v17, ofBuf_v14, ofBuf_v16, ofBuf_cst_4])
  all_goals rfl
set_option maxHeartbeats 4000000 in
theorem early_v6 : early m ρ c (Proc.devRef .tc main_v6) = Cert.Gcn.targets (F := Ideal) (m ((c : Thread nD τ).loc main_arg1)) := by
  show StableHlo.after hostOps0_1 (StableHlo.after hostOps0 (launch m ρ c)) (Proc.devRef .tc main_v6) = _
  after_results
  all_goals (try simp only [ofBuf_toBuf, toBuf_v17, ofBuf_v14, ofBuf_v16, ofBuf_cst_4])
  all_goals rfl
set_option maxHeartbeats 4000000 in
theorem early_v8 : early m ρ c (Proc.devRef .tc main_v8) = Cert.Gcn.weights (F := Ideal) (m ((c : Thread nD τ).loc main_arg2)) := by
  show StableHlo.after hostOps0_1 (StableHlo.after hostOps0 (launch m ρ c)) (Proc.devRef .tc main_v8) = _
  after_results
  all_goals (try simp only [ofBuf_toBuf, toBuf_v17, ofBuf_v14, ofBuf_v16, ofBuf_cst_4])
  all_goals rfl
set_option maxHeartbeats 4000000 in
theorem early_v17 : early m ρ c (Proc.devRef .tc main_v17) = Cert.Gcn.invSqrtDegree (F := Ideal) (m ((c : Thread nD τ).loc main_arg1)) := by
  show StableHlo.after hostOps0_1 (StableHlo.after hostOps0 (launch m ρ c)) (Proc.devRef .tc main_v17) = _
  after_results
  all_goals (try simp only [ofBuf_toBuf, toBuf_v17, ofBuf_v14, ofBuf_v16, ofBuf_cst_4])
  all_goals rfl
set_option maxHeartbeats 4000000 in
theorem early_arg0 : early m ρ c (Proc.devRef .tc main_arg0) = m ((c : Thread nD τ).loc main_arg0) := by
  show StableHlo.after hostOps0_1 (StableHlo.after hostOps0 (launch m ρ c)) (Proc.devRef .tc main_arg0) = _
  after_results
  all_goals (try simp only [ofBuf_toBuf, toBuf_v17, ofBuf_v14, ofBuf_v16, ofBuf_cst_4])
  all_goals rfl
set_option maxHeartbeats 4000000 in
theorem early_arg3 : early m ρ c (Proc.devRef .tc main_arg3) = m ((c : Thread nD τ).loc main_arg3) := by
  show StableHlo.after hostOps0_1 (StableHlo.after hostOps0 (launch m ρ c)) (Proc.devRef .tc main_arg3) = _
  after_results
  all_goals (try simp only [ofBuf_toBuf, toBuf_v17, ofBuf_v14, ofBuf_v16, ofBuf_cst_4])
  all_goals rfl
set_option maxHeartbeats 4000000 in
theorem early_arg4 : early m ρ c (Proc.devRef .tc main_arg4) = m ((c : Thread nD τ).loc main_arg4) := by
  show StableHlo.after hostOps0_1 (StableHlo.after hostOps0 (launch m ρ c)) (Proc.devRef .tc main_arg4) = _
  after_results
  all_goals (try simp only [ofBuf_toBuf, toBuf_v17, ofBuf_v14, ofBuf_v16, ofBuf_cst_4])
  all_goals rfl
set_option maxHeartbeats 4000000 in
theorem early_arg5 : early m ρ c (Proc.devRef .tc main_arg5) = m ((c : Thread nD τ).loc main_arg5) := by
  show StableHlo.after hostOps0_1 (StableHlo.after hostOps0 (launch m ρ c)) (Proc.devRef .tc main_arg5) = _
  after_results
  all_goals (try simp only [ofBuf_toBuf, toBuf_v17, ofBuf_v14, ofBuf_v16, ofBuf_cst_4])
  all_goals rfl
set_option maxHeartbeats 4000000 in
theorem early_arg6 : early m ρ c (Proc.devRef .tc main_arg6) = m ((c : Thread nD τ).loc main_arg6) := by
  show StableHlo.after hostOps0_1 (StableHlo.after hostOps0 (launch m ρ c)) (Proc.devRef .tc main_arg6) = _
  after_results
  all_goals (try simp only [ofBuf_toBuf, toBuf_v17, ofBuf_v14, ofBuf_v16, ofBuf_cst_4])
  all_goals rfl
set_option maxHeartbeats 4000000 in
theorem in1_v5 : W3 m ρ c (Proc.devRef .tc main_v5) = Cert.Gcn.sources (F := Ideal) (m ((c : Thread nD τ).loc main_arg1)) := by
  show StableHlo.after hostOps0_2 (early m ρ c) (Proc.devRef .tc main_v5) = _
  after_results
  all_goals exact early_v5 m ρ c
set_option maxHeartbeats 4000000 in
theorem in1_v6 : W3 m ρ c (Proc.devRef .tc main_v6) = Cert.Gcn.targets (F := Ideal) (m ((c : Thread nD τ).loc main_arg1)) := by
  show StableHlo.after hostOps0_2 (early m ρ c) (Proc.devRef .tc main_v6) = _
  after_results
  all_goals exact early_v6 m ρ c
set_option maxHeartbeats 4000000 in
theorem in1_v33 : W3 m ρ c (Proc.devRef .tc main_v33) = Cert.Gcn.edgeNorm (F := Ideal) (m ((c : Thread nD τ).loc main_arg1)) (m ((c : Thread nD τ).loc main_arg2)) := by
  show StableHlo.after hostOps0_2 (early m ρ c) (Proc.devRef .tc main_v33) = _
  after_results
  all_goals rw [early_v17 m ρ c, early_v5 m ρ c, early_v8 m ρ c, early_v6 m ρ c]
  all_goals (try simp only [ofBuf_toBuf, toBuf_v17, ofBuf_v14, ofBuf_v16, ofBuf_cst_4])
  all_goals rfl
set_option maxHeartbeats 4000000 in
theorem in1_v34 : W3 m ρ c (Proc.devRef .tc main_v34) = Cert.Gcn.weightT1 (F := Ideal) (m ((c : Thread nD τ).loc main_arg3)) := by
  show StableHlo.after hostOps0_2 (early m ρ c) (Proc.devRef .tc main_v34) = _
  after_results
  all_goals rw [early_arg3 m ρ c]
  all_goals (try simp only [ofBuf_toBuf, toBuf_v17, ofBuf_v14, ofBuf_v16, ofBuf_cst_4])
  all_goals rfl
set_option maxHeartbeats 4000000 in
theorem in1_arg0 : W3 m ρ c (Proc.devRef .tc main_arg0) = m ((c : Thread nD τ).loc main_arg0) := by
  show StableHlo.after hostOps0_2 (early m ρ c) (Proc.devRef .tc main_arg0) = _
  after_results
  all_goals exact early_arg0 m ρ c
set_option maxHeartbeats 4000000 in
theorem in1_arg4 : W3 m ρ c (Proc.devRef .tc main_arg4) = m ((c : Thread nD τ).loc main_arg4) := by
  show StableHlo.after hostOps0_2 (early m ρ c) (Proc.devRef .tc main_arg4) = _
  after_results
  all_goals exact early_arg4 m ρ c
set_option maxHeartbeats 4000000 in
theorem in1_arg5 : W3 m ρ c (Proc.devRef .tc main_arg5) = m ((c : Thread nD τ).loc main_arg5) := by
  show StableHlo.after hostOps0_2 (early m ρ c) (Proc.devRef .tc main_arg5) = _
  after_results
  all_goals exact early_arg5 m ρ c
set_option maxHeartbeats 4000000 in
theorem in1_arg6 : W3 m ρ c (Proc.devRef .tc main_arg6) = m ((c : Thread nD τ).loc main_arg6) := by
  show StableHlo.after hostOps0_2 (early m ρ c) (Proc.devRef .tc main_arg6) = _
  after_results
  all_goals exact early_arg6 m ρ c

/-! ### The first projection -/
theorem out1_v35 : W4 m ρ c (Proc.devRef .tc main_v35) = Cert.Gcn.project1 (F := Ideal) (m ((c : Thread nD τ).loc main_arg0)) (Cert.Gcn.weightT1 (m ((c : Thread nD τ).loc main_arg3))) := by
  refine (W4_arr m ρ c 2).trans ((Blocks.result1 (V3 m ρ) c).trans ?_)
  show Cert.Gcn.Product.rowsByCols (n := 50000) (k := 256) (p := 96) (W3 m ρ c (Proc.devRef .tc main_arg0)) (W3 m ρ c (Proc.devRef .tc main_v34)) = _
  rw [in1_arg0 m ρ c, in1_v34 m ρ c]
  exact (Cert.Gcn.Forms.project1_eq _ _).symm
theorem out1_v5 : W4 m ρ c (Proc.devRef .tc main_v5) = Cert.Gcn.sources (F := Ideal) (m ((c : Thread nD τ).loc main_arg1)) :=
  (W4_of_ne m ρ c main_v5 (by decide)).trans (in1_v5 m ρ c)
theorem out1_v6 : W4 m ρ c (Proc.devRef .tc main_v6) = Cert.Gcn.targets (F := Ideal) (m ((c : Thread nD τ).loc main_arg1)) :=
  (W4_of_ne m ρ c main_v6 (by decide)).trans (in1_v6 m ρ c)
theorem out1_v33 : W4 m ρ c (Proc.devRef .tc main_v33) = Cert.Gcn.edgeNorm (F := Ideal) (m ((c : Thread nD τ).loc main_arg1)) (m ((c : Thread nD τ).loc main_arg2)) :=
  (W4_of_ne m ρ c main_v33 (by decide)).trans (in1_v33 m ρ c)
theorem out1_arg4 : W4 m ρ c (Proc.devRef .tc main_arg4) = m ((c : Thread nD τ).loc main_arg4) :=
  (W4_of_ne m ρ c main_arg4 (by decide)).trans (in1_arg4 m ρ c)
theorem out1_arg5 : W4 m ρ c (Proc.devRef .tc main_arg5) = m ((c : Thread nD τ).loc main_arg5) :=
  (W4_of_ne m ρ c main_arg5 (by decide)).trans (in1_arg5 m ρ c)
theorem out1_arg6 : W4 m ρ c (Proc.devRef .tc main_arg6) = m ((c : Thread nD τ).loc main_arg6) :=
  (W4_of_ne m ρ c main_arg6 (by decide)).trans (in1_arg6 m ρ c)

/-! ### The first message passing -/
set_option maxHeartbeats 4000000 in
theorem in2_v48 : W5 m ρ c (Proc.devRef .tc main_v48) = Cert.Gcn.propagate96 (F := Ideal) (m ((c : Thread nD τ).loc main_arg1)) (m ((c : Thread nD τ).loc main_arg2)) (Cert.Gcn.project1 (m ((c : Thread nD τ).loc main_arg0)) (Cert.Gcn.weightT1 (m ((c : Thread nD τ).loc main_arg3)))) := by
  show StableHlo.after hostOps1 (W4 m ρ c) (Proc.devRef .tc main_v48) = _
  after_results
  all_goals rw [out1_v6 m ρ c, out1_v33 m ρ c, out1_v35 m ρ c, out1_v5 m ρ c]
  all_goals (try simp only [ofBuf_toBuf, toBuf_v17, ofBuf_v14, ofBuf_v16, ofBuf_cst_4])
  all_goals rfl
set_option maxHeartbeats 4000000 in
theorem in2_v5 : W5 m ρ c (Proc.devRef .tc main_v5) = Cert.Gcn.sources (F := Ideal) (m ((c : Thread nD τ).loc main_arg1)) := by
  show StableHlo.after hostOps1 (W4 m ρ c) (Proc.devRef .tc main_v5) = _
  after_results
  all_goals exact out1_v5 m ρ c
set_option maxHeartbeats 4000000 in
theorem in2_v6 : W5 m ρ c (Proc.devRef .tc main_v6) = Cert.Gcn.targets (F := Ideal) (m ((c : Thread nD τ).loc main_arg1)) := by
  show StableHlo.after hostOps1 (W4 m ρ c) (Proc.devRef .tc main_v6) = _
  after_results
  all_goals exact out1_v6 m ρ c
set_option maxHeartbeats 4000000 in
theorem in2_v33 : W5 m ρ c (Proc.devRef .tc main_v33) = Cert.Gcn.edgeNorm (F := Ideal) (m ((c : Thread nD τ).loc main_arg1)) (m ((c : Thread nD τ).loc main_arg2)) := by
  show StableHlo.after hostOps1 (W4 m ρ c) (Proc.devRef .tc main_v33) = _
  after_results
  all_goals exact out1_v33 m ρ c
set_option maxHeartbeats 4000000 in
theorem in2_arg4 : W5 m ρ c (Proc.devRef .tc main_arg4) = m ((c : Thread nD τ).loc main_arg4) := by
  show StableHlo.after hostOps1 (W4 m ρ c) (Proc.devRef .tc main_arg4) = _
  after_results
  all_goals exact out1_arg4 m ρ c
set_option maxHeartbeats 4000000 in
theorem in2_arg5 : W5 m ρ c (Proc.devRef .tc main_arg5) = m ((c : Thread nD τ).loc main_arg5) := by
  show StableHlo.after hostOps1 (W4 m ρ c) (Proc.devRef .tc main_arg5) = _
  after_results
  all_goals exact out1_arg5 m ρ c
set_option maxHeartbeats 4000000 in
theorem in2_arg6 : W5 m ρ c (Proc.devRef .tc main_arg6) = m ((c : Thread nD τ).loc main_arg6) := by
  show StableHlo.after hostOps1 (W4 m ρ c) (Proc.devRef .tc main_arg6) = _
  after_results
  all_goals exact out1_arg6 m ρ c

/-! ### The bias and the positive part -/
theorem out2_v49 : W6 m ρ c (Proc.devRef .tc main_v49) = Cert.Gcn.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Blocks.resultRelu (V5 m ρ) c).trans ?_)
  show Cert.Gcn.Rows.positive (n := 50000) (f := 96) (Cert.Gcn.Rows.biased (W5 m ρ c (Proc.devRef .tc main_v48)) (W5 m ρ c (Proc.devRef .tc main_arg4))) = _
  rw [in2_v48 m ρ c, in2_arg4 m ρ c]
  unfold Cert.Gcn.hidden
  rw [Cert.Gcn.Forms.relu_eq, Cert.Gcn.Forms.addBias96_eq]
theorem out2_v5 : W6 m ρ c (Proc.devRef .tc main_v5) = Cert.Gcn.sources (F := Ideal) (m ((c : Thread nD τ).loc main_arg1)) :=
  (W6_of_ne m ρ c main_v5 (by decide)).trans (in2_v5 m ρ c)
theorem out2_v6 : W6 m ρ c (Proc.devRef .tc main_v6) = Cert.Gcn.targets (F := Ideal) (m ((c : Thread nD τ).loc main_arg1)) :=
  (W6_of_ne m ρ c main_v6 (by decide)).trans (in2_v6 m ρ c)
theorem out2_v33 : W6 m ρ c (Proc.devRef .tc main_v33) = Cert.Gcn.edgeNorm (F := Ideal) (m ((c : Thread nD τ).loc main_arg1)) (m ((c : Thread nD τ).loc main_arg2)) :=
  (W6_of_ne m ρ c main_v33 (by decide)).trans (in2_v33 m ρ c)
theorem out2_arg5 : W6 m ρ c (Proc.devRef .tc main_arg5) = m ((c : Thread nD τ).loc main_arg5) :=
  (W6_of_ne m ρ c main_arg5 (by decide)).trans (in2_arg5 m ρ c)
theorem out2_arg6 : W6 m ρ c (Proc.devRef .tc main_arg6) = m ((c : Thread nD τ).loc main_arg6) :=
  (W6_of_ne m ρ c main_arg6 (by decide)).trans (in2_arg6 m ρ c)

/-! ### The second weight transposed -/
set_option maxHeartbeats 4000000 in
theorem in3_v50 : W7 m ρ c (Proc.devRef .tc main_v50) = Cert.Gcn.weightT2 (F := Ideal) (m ((c : Thread nD τ).loc main_arg5)) := by
  show StableHlo.after hostOps2 (W6 m ρ c) (Proc.devRef .tc main_v50) = _
  after_results
  all_goals rw [out2_arg5 m ρ c]
  all_goals (try simp only [ofBuf_toBuf, toBuf_v17, ofBuf_v14, ofBuf_v16, ofBuf_cst_4])
  all_goals rfl
set_option maxHeartbeats 4000000 in
theorem in3_v49 : W7 m ρ c (Proc.devRef .tc main_v49) = Cert.Gcn.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v49) = _
  after_results
  all_goals exact out2_v49 m ρ c
set_option maxHeartbeats 4000000 in
theorem in3_v5 : W7 m ρ c (Proc.devRef .tc main_v5) = Cert.Gcn.sources (F := Ideal) (m ((c : Thread nD τ).loc main_arg1)) := by
  show StableHlo.after hostOps2 (W6 m ρ c) (Proc.devRef .tc main_v5) = _
  after_results
  all_goals exact out2_v5 m ρ c
set_option maxHeartbeats 4000000 in
theorem in3_v6 : W7 m ρ c (Proc.devRef .tc main_v6) = Cert.Gcn.targets (F := Ideal) (m ((c : Thread nD τ).loc main_arg1)) := by
  show StableHlo.after hostOps2 (W6 m ρ c) (Proc.devRef .tc main_v6) = _
  after_results
  all_goals exact out2_v6 m ρ c
set_option maxHeartbeats 4000000 in
theorem in3_v33 : W7 m ρ c (Proc.devRef .tc main_v33) = Cert.Gcn.edgeNorm (F := Ideal) (m ((c : Thread nD τ).loc main_arg1)) (m ((c : Thread nD τ).loc main_arg2)) := by
  show StableHlo.after hostOps2 (W6 m ρ c) (Proc.devRef .tc main_v33) = _
  after_results
  all_goals exact out2_v33 m ρ c
set_option maxHeartbeats 4000000 in
theorem in3_arg6 : W7 m ρ c (Proc.devRef .tc main_arg6) = m ((c : Thread nD τ).loc main_arg6) := by
  show StableHlo.after hostOps2 (W6 m ρ c) (Proc.devRef .tc main_arg6) = _
  after_results
  all_goals exact out2_arg6 m ρ c

/-! ### The second projection -/
theorem out3_v51 : W8 m ρ c (Proc.devRef .tc main_v51) = Cert.Gcn.project2 (F := Ideal) (Cert.Gcn.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.Gcn.weightT2 (m ((c : Thread nD τ).loc main_arg5))) := by
  refine (W8_arr m ρ c 2).trans ((Blocks.result2 (V7 m ρ) c).trans ?_)
  show Cert.Gcn.Product.rowsByCols (n := 50000) (k := 96) (p := 40) (W7 m ρ c (Proc.devRef .tc main_v49)) (W7 m ρ c (Proc.devRef .tc main_v50)) = _
  rw [in3_v49 m ρ c, in3_v50 m ρ c]
  exact (Cert.Gcn.Forms.project2_eq _ _).symm
theorem out3_v5 : W8 m ρ c (Proc.devRef .tc main_v5) = Cert.Gcn.sources (F := Ideal) (m ((c : Thread nD τ).loc main_arg1)) :=
  (W8_of_ne m ρ c main_v5 (by decide)).trans (in3_v5 m ρ c)
theorem out3_v6 : W8 m ρ c (Proc.devRef .tc main_v6) = Cert.Gcn.targets (F := Ideal) (m ((c : Thread nD τ).loc main_arg1)) :=
  (W8_of_ne m ρ c main_v6 (by decide)).trans (in3_v6 m ρ c)
theorem out3_v33 : W8 m ρ c (Proc.devRef .tc main_v33) = Cert.Gcn.edgeNorm (F := Ideal) (m ((c : Thread nD τ).loc main_arg1)) (m ((c : Thread nD τ).loc main_arg2)) :=
  (W8_of_ne m ρ c main_v33 (by decide)).trans (in3_v33 m ρ c)
theorem out3_arg6 : W8 m ρ c (Proc.devRef .tc main_arg6) = m ((c : Thread nD τ).loc main_arg6) :=
  (W8_of_ne m ρ c main_arg6 (by decide)).trans (in3_arg6 m ρ c)

/-! ### The second message passing -/
set_option maxHeartbeats 4000000 in
theorem in4_v64 : W9 m ρ c (Proc.devRef .tc main_v64) = Cert.Gcn.propagate40 (F := Ideal) (m ((c : Thread nD τ).loc main_arg1)) (m ((c : Thread nD τ).loc main_arg2)) (Cert.Gcn.project2 (Cert.Gcn.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.Gcn.weightT2 (m ((c : Thread nD τ).loc main_arg5)))) := by
  show StableHlo.after hostOps3 (W8 m ρ c) (Proc.devRef .tc main_v64) = _
  after_results
  all_goals rw [out3_v6 m ρ c, out3_v33 m ρ c, out3_v51 m ρ c, out3_v5 m ρ c]
  all_goals (try simp only [ofBuf_toBuf, toBuf_v17, ofBuf_v14, ofBuf_v16, ofBuf_cst_4])
  all_goals rfl
set_option maxHeartbeats 4000000 in
theorem in4_arg6 : W9 m ρ c (Proc.devRef .tc main_arg6) = m ((c : Thread nD τ).loc main_arg6) := by
  show StableHlo.after hostOps3 (W8 m ρ c) (Proc.devRef .tc main_arg6) = _
  after_results
  all_goals exact out3_arg6 m ρ c

/-! ### The bias and the log-softmax -/
/-- The result array after the run: the kernel's log-softmax of the biased second layer. -/
theorem out4_v65 : W10 m ρ c (Proc.devRef .tc main_v65)
    = Cert.Gcn.Rows.logSoftmaxK (n := 50000) (f := 40) (Cert.Gcn.Rows.biased (Cert.Gcn.propagate40 (F := Ideal) (m ((c : Thread nD τ).loc main_arg1)) (m ((c : Thread nD τ).loc main_arg2)) (Cert.Gcn.project2 (Cert.Gcn.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.Gcn.weightT2 (m ((c : Thread nD τ).loc main_arg5))))) (m ((c : Thread nD τ).loc main_arg6))) := by
  refine (W10_arr m ρ c 2).trans ((Blocks.resultLsm (V9 m ρ) c).trans ?_)
  show Cert.Gcn.Rows.logSoftmaxK (n := 50000) (f := 40) (Cert.Gcn.Rows.biased (W9 m ρ c (Proc.devRef .tc main_v64)) (W9 m ρ c (Proc.devRef .tc main_arg6))) = _
  rw [in4_v64 m ρ c, in4_arg6 m ρ c]

end Cert.KernelIdeal.Whole

end
-- ==== Proof.RefRun.lean ====
/-
  The reference program's run.

  The reference is a straight line of 106 host operations (the bodies of the three functions it calls stand in
  their calls' places).  Run from any memory, every weakly fair execution terminates; each buffer then holds
  what the operations, applied in order to the launch contents, leave in it.  The operations are read in nine
  stretches, one per step of the network: the edges with their self-loops and the degrees; the edges' norms; the
  first projection; the first message passing; the bias and the positive part; the second projection; the second
  message passing; the bias; the log-softmax.  After each stretch the buffers that later stretches read hold the
  specification's function for that step of the argument arrays.  Read at the result buffer the last one is the
  network; an argument is never written.
-/
import proofs.«161012_j21045339750898_1_alg».proof.Proof.Spec
import Idealize.ShloMosaic.Lib.StableHlo.Run
import Idealize.ShloMosaic.Lib.Pipeline.Frame

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- Stretch 1 of @main's operations. -/
abbrev part1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_0 (constant S_ .f32 0x3F800000#32),
    unary main_cst_0 main_v9 (broadcastInDim S850000 ![] bcast_S_S850000 : (⟨S_, .f32⟩ : BufTy).Contents (Elt F) → (⟨S850000, .f32⟩ : BufTy).Contents (Elt F)),
    nullary main_cst_1 (constant S_ .f32 0x00000000#32),
    unary main_cst_1 main_v10 (broadcastInDim S50000 ![] bcast_S_S50000 : (⟨S_, .f32⟩ : BufTy).Contents (Elt F) → (⟨S50000, .f32⟩ : BufTy).Contents (Elt F)),
    unary main_v5 main_v11 (broadcastInDim S850000x1 ![0] bcast_S850000_S850000x1_0 : (⟨S850000, .i32⟩ : BufTy).Contents (Elt F) → (⟨S850000x1, .i32⟩ : BufTy).Contents (Elt F)),
    ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_2 (constant S_ .f32 0x00000000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0xBF000000#32),
    unary main_cst_3 main_v15 (broadcastInDim S50000 ![] bcast_S_S50000 : (⟨S_, .f32⟩ : BufTy).Contents (Elt F) → (⟨S50000, .f32⟩ : BufTy).Contents (Elt F)),
    binary main_v12 main_v15 main_v16 (Host.powf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v14) (TRef.of (T := ⟨S50000, .f32⟩) main_v16) (TRef.of (T := ⟨S50000, .f32⟩) main_call0_v1) (TRef.of (T := ⟨S50000, .f32⟩) main_v17) select ]

/-- Stretch 2 of @main's operations. -/
abbrev part2 : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v5 main_v18 main_v19 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v20 (broadcastInDim S850000 ![] bcast_S_S850000 : (⟨S_, .i32⟩ : BufTy).Contents (Elt F) → (⟨S850000, .i32⟩ : BufTy).Contents (Elt F)),
    binary main_v5 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v5 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v8 main_v25 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v17 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)) ]

/-- Stretch 3 of @main's operations. -/
abbrev part3 : List (HloOp τ sig (Elt F)) :=
  [ unary main_arg3 main_v34 ((transpose S256x96 [1, 0] · transposes_S96x256_S256x96_1_0) : (⟨S96x256, .f32⟩ : BufTy).Contents (Elt F) → (⟨S256x96, .f32⟩ : BufTy).Contents (Elt F)),
    binary main_arg0 main_v34 main_v35 ((fun l r => Host.dotGeneral dot_S50000x256_S256x96_S50000x96_1_0_0_1_n_n none l r) : (⟨S50000x256, .f32⟩ : BufTy).Contents (Elt F) → (⟨S256x96, .f32⟩ : BufTy).Contents (Elt F) → (⟨S50000x96, .f32⟩ : BufTy).Contents (Elt F)) ]

/-- Stretch 4 of @main's operations. -/
abbrev part4 : List (HloOp τ sig (Elt F)) :=
  [ unary main_v33 main_v36 (broadcastInDim S850000x1 ![0] bcast_S850000_S850000x1_0 : (⟨S850000, .f32⟩ : BufTy).Contents (Elt F) → (⟨S850000x1, .f32⟩ : BufTy).Contents (Elt F)),
    nullary main_c_8 (constantI S_ 32 0#32),
    unary main_c_8 main_v37 (broadcastInDim S850000 ![] bcast_S_S850000 : (⟨S_, .i32⟩ : BufTy).Contents (Elt F) → (⟨S850000, .i32⟩ : BufTy).Contents (Elt F)),
    binary main_v5 main_v37 main_v38 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v39 (broadcastInDim S850000 ![] bcast_S_S850000 : (⟨S_, .i32⟩ : BufTy).Contents (Elt F) → (⟨S850000, .i32⟩ : BufTy).Contents (Elt F)),
    binary main_v5 main_v39 main_v40 (addi : (⟨S850000, .i32⟩ : BufTy).Contents (Elt F) → (⟨S850000, .i32⟩ : BufTy).Contents (Elt F) → (⟨S850000, .i32⟩ : BufTy).Contents (Elt F)),
    ternary main_v38 main_v40 main_v5 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v41 main_v42 (broadcastInDim S850000x1 ![0] bcast_S850000_S850000x1_0 : (⟨S850000, .i32⟩ : BufTy).Contents (Elt F) → (⟨S850000x1, .i32⟩ : BufTy).Contents (Elt F)),
    binary main_v35 main_v42 main_v43 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v36 main_v44 (broadcastInDim S850000x96 ![0, 1] bcast_S850000x1_S850000x96_0_1 : (⟨S850000x1, .f32⟩ : BufTy).Contents (Elt F) → (⟨S850000x96, .f32⟩ : BufTy).Contents (Elt F)),
    binary main_v44 main_v43 main_v45 (mulf : (⟨S850000x96, .f32⟩ : BufTy).Contents (Elt F) → (⟨S850000x96, .f32⟩ : BufTy).Contents (Elt F) → (⟨S850000x96, .f32⟩ : BufTy).Contents (Elt F)),
    nullary main_cst_10 (constant S_ .f32 0x00000000#32),
    unary main_cst_10 main_v46 (broadcastInDim S50000x96 ![] bcast_S_S50000x96 : (⟨S_, .f32⟩ : BufTy).Contents (Elt F) → (⟨S50000x96, .f32⟩ : BufTy).Contents (Elt F)),
    unary main_v6 main_v47 (broadcastInDim S850000x1 ![0] bcast_S850000_S850000x1_0 : (⟨S850000, .i32⟩ : BufTy).Contents (Elt F) → (⟨S850000x1, .i32⟩ : BufTy).Contents (Elt F)),
    ternary main_v46 main_v47 main_v45 main_v48 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) ]

/-- Stretch 5 of @main's operations. -/
abbrev part5 : List (HloOp τ sig (Elt F)) :=
  [ unary main_arg4 main_v49 (broadcastInDim S1x96 ![1] bcast_S96_S1x96_1 : (⟨S96, .f32⟩ : BufTy).Contents (Elt F) → (⟨S1x96, .f32⟩ : BufTy).Contents (Elt F)),
    unary main_v49 main_v50 (broadcastInDim S50000x96 ![0, 1] bcast_S1x96_S50000x96_0_1 : (⟨S1x96, .f32⟩ : BufTy).Contents (Elt F) → (⟨S50000x96, .f32⟩ : BufTy).Contents (Elt F)),
    binary main_v48 main_v50 main_v51 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v51) (TRef.of (T := ⟨S50000x96, .f32⟩) main_call1_v0) (TRef.of (T := ⟨S50000x96, .f32⟩) main_v52) maximumf ]

/-- Stretch 6 of @main's operations. -/
abbrev part6 : List (HloOp τ sig (Elt F)) :=
  [ unary main_arg5 main_v53 ((transpose S96x40 [1, 0] · transposes_S40x96_S96x40_1_0) : (⟨S40x96, .f32⟩ : BufTy).Contents (Elt F) → (⟨S96x40, .f32⟩ : BufTy).Contents (Elt F)),
    binary main_v52 main_v53 main_v54 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)) ]

/-- Stretch 7 of @main's operations. -/
abbrev part7 : List (HloOp τ sig (Elt F)) :=
  [ unary main_v33 main_v55 (broadcastInDim S850000x1 ![0] bcast_S850000_S850000x1_0 : (⟨S850000, .f32⟩ : BufTy).Contents (Elt F) → (⟨S850000x1, .f32⟩ : BufTy).Contents (Elt F)),
    nullary main_c_11 (constantI S_ 32 0#32),
    unary main_c_11 main_v56 (broadcastInDim S850000 ![] bcast_S_S850000 : (⟨S_, .i32⟩ : BufTy).Contents (Elt F) → (⟨S850000, .i32⟩ : BufTy).Contents (Elt F)),
    binary main_v5 main_v56 main_v57 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v58 (broadcastInDim S850000 ![] bcast_S_S850000 : (⟨S_, .i32⟩ : BufTy).Contents (Elt F) → (⟨S850000, .i32⟩ : BufTy).Contents (Elt F)),
    binary main_v5 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v5 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v54 main_v61 main_v62 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v55 main_v63 (broadcastInDim S850000x40 ![0, 1] bcast_S850000x1_S850000x40_0_1 : (⟨S850000x1, .f32⟩ : BufTy).Contents (Elt F) → (⟨S850000x40, .f32⟩ : BufTy).Contents (Elt F)),
    binary main_v63 main_v62 main_v64 (mulf : (⟨S850000x40, .f32⟩ : BufTy).Contents (Elt F) → (⟨S850000x40, .f32⟩ : BufTy).Contents (Elt F) → (⟨S850000x40, .f32⟩ : BufTy).Contents (Elt F)),
    nullary main_cst_13 (constant S_ .f32 0x00000000#32),
    unary main_cst_13 main_v65 (broadcastInDim S50000x40 ![] bcast_S_S50000x40 : (⟨S_, .f32⟩ : BufTy).Contents (Elt F) → (⟨S50000x40, .f32⟩ : BufTy).Contents (Elt F)),
    unary main_v6 main_v66 (broadcastInDim S850000x1 ![0] bcast_S850000_S850000x1_0 : (⟨S850000, .i32⟩ : BufTy).Contents (Elt F) → (⟨S850000x1, .i32⟩ : BufTy).Contents (Elt F)),
    ternary main_v65 main_v66 main_v64 main_v67 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)) ]

/-- Stretch 8 of @main's operations. -/
abbrev part8 : List (HloOp τ sig (Elt F)) :=
  [ unary main_arg6 main_v68 (broadcastInDim S1x40 ![1] bcast_S40_S1x40_1 : (⟨S40, .f32⟩ : BufTy).Contents (Elt F) → (⟨S1x40, .f32⟩ : BufTy).Contents (Elt F)),
    unary main_v68 main_v69 (broadcastInDim S50000x40 ![0, 1] bcast_S1x40_S50000x40_0_1 : (⟨S1x40, .f32⟩ : BufTy).Contents (Elt F) → (⟨S50000x40, .f32⟩ : BufTy).Contents (Elt F)),
    binary main_v67 main_v69 main_v70 (addf : (⟨S50000x40, .f32⟩ : BufTy).Contents (Elt F) → (⟨S50000x40, .f32⟩ : BufTy).Contents (Elt F) → (⟨S50000x40, .f32⟩ : BufTy).Contents (Elt F)) ]

/-- Stretch 9 of @main's operations. -/
abbrev part9 : List (HloOp τ sig (Elt F)) :=
  [ TRef.nullary (TRef.of (T := ⟨S_, .f32⟩) main_call2_cst) (constant S_ .f32 0xFF800000#32),
    TRef.binary (TRef.of (T := ⟨S50000x40, .f32⟩) main_v70) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v70) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v71) subf ]

/-- @main's operations, in order. -/
abbrev ops : List (HloOp τ sig (Elt F)) :=
  part1 ++ part2 ++ part3 ++ part4 ++ part5 ++ part6 ++ part7 ++ part8 ++ part9

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! The typed references of an inlined function carry their contents along an equation between buffer types that
    holds by computation: moving contents there and back, or along it at a literal buffer, changes nothing. -/

theorem ofBuf_toBuf {T : BufTy} {Val : EltTy → Type} (x : TRef sig T) (v : T.Contents Val) : x.ofBuf (x.toBuf v) = v := by
  obtain ⟨r, h, h2, h3⟩ := x
  subst h
  rfl
theorem toBuf_v17 (v : (⟨S50000, .f32⟩ : BufTy).Contents (Elt F)) :
    (TRef.of (T := ⟨S50000, .f32⟩) main_v17 : TRef sig _).toBuf v = v := rfl
theorem ofBuf_v14 (v : (⟨S50000, .i1⟩ : BufTy).Contents (Elt F)) :
    (TRef.of (T := ⟨S50000, .i1⟩) main_v14 : TRef sig _).ofBuf v = v := rfl
theorem ofBuf_v16 (v : (⟨S50000, .f32⟩ : BufTy).Contents (Elt F)) :
    (TRef.of (T := ⟨S50000, .f32⟩) main_v16 : TRef sig _).ofBuf v = v := rfl
theorem ofBuf_cst_4 (v : (⟨S_, .f32⟩ : BufTy).Contents (Elt F)) :
    (TRef.of (T := ⟨S_, .f32⟩) main_cst_4 : TRef sig _).ofBuf v = v := rfl
theorem toBuf_v52 (v : (⟨S50000x96, .f32⟩ : BufTy).Contents (Elt F)) :
    (TRef.of (T := ⟨S50000x96, .f32⟩) main_v52 : TRef sig _).toBuf v = v := rfl
theorem ofBuf_v51 (v : (⟨S50000x96, .f32⟩ : BufTy).Contents (Elt F)) :
    (TRef.of (T := ⟨S50000x96, .f32⟩) main_v51 : TRef sig _).ofBuf v = v := rfl
theorem toBuf_v71 (v : (⟨S50000x40, .f32⟩ : BufTy).Contents (Elt F)) :
    (TRef.of (T := ⟨S50000x40, .f32⟩) main_v71 : TRef sig _).toBuf v = v := rfl
theorem ofBuf_v70 (v : (⟨S50000x40, .f32⟩ : BufTy).Contents (Elt F)) :
    (TRef.of (T := ⟨S50000x40, .f32⟩) main_v70 : TRef sig _).ofBuf v = v := rfl

variable (m : (ℓ : Loc nD τ sig) → Buf (Elt F) ℓ) (c : Dev nD)

/-- The buffers' contents after the first k stretches. -/
def after0 : Valuation τ sig (Elt F) := launchContents m c
def after1 : Valuation τ sig (Elt F) := after part1 (after0 m c)
def after2 : Valuation τ sig (Elt F) := after part2 (after1 m c)
def after3 : Valuation τ sig (Elt F) := after part3 (after2 m c)
def after4 : Valuation τ sig (Elt F) := after part4 (after3 m c)
def after5 : Valuation τ sig (Elt F) := after part5 (after4 m c)
def after6 : Valuation τ sig (Elt F) := after part6 (after5 m c)
def after7 : Valuation τ sig (Elt F) := after part7 (after6 m c)
def after8 : Valuation τ sig (Elt F) := after part8 (after7 m c)
def after9 : Valuation τ sig (Elt F) := after part9 (after8 m c)

theorem after_all : after ops (launchContents m c) = after9 m c := by
  simp only [ops, StableHlo.after_append]
  rfl

/-! ### After stretch 1 -/
set_option maxHeartbeats 4000000 in
theorem at1_v5 : after1 m c (Proc.devRef .tc main_v5) = Cert.Gcn.sources (F := F) (m ((c.tc : Thread nD τ).loc main_arg1)) := by
  show after part1 (after0 m c) (Proc.devRef .tc main_v5) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_v6 : after1 m c (Proc.devRef .tc main_v6) = Cert.Gcn.targets (F := F) (m ((c.tc : Thread nD τ).loc main_arg1)) := by
  show after part1 (after0 m c) (Proc.devRef .tc main_v6) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_v8 : after1 m c (Proc.devRef .tc main_v8) = Cert.Gcn.weights (F := F) (m ((c.tc : Thread nD τ).loc main_arg2)) := by
  show after part1 (after0 m c) (Proc.devRef .tc main_v8) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_v17 : after1 m c (Proc.devRef .tc main_v17) = Cert.Gcn.invSqrtDegree (F := F) (m ((c.tc : Thread nD τ).loc main_arg1)) := by
  show after part1 (after0 m c) (Proc.devRef .tc main_v17) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_arg0 : after1 m c (Proc.devRef .tc main_arg0) = m ((c.tc : Thread nD τ).loc main_arg0) := by
  show after part1 (after0 m c) (Proc.devRef .tc main_arg0) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_arg3 : after1 m c (Proc.devRef .tc main_arg3) = m ((c.tc : Thread nD τ).loc main_arg3) := by
  show after part1 (after0 m c) (Proc.devRef .tc main_arg3) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_arg4 : after1 m c (Proc.devRef .tc main_arg4) = m ((c.tc : Thread nD τ).loc main_arg4) := by
  show after part1 (after0 m c) (Proc.devRef .tc main_arg4) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_arg5 : after1 m c (Proc.devRef .tc main_arg5) = m ((c.tc : Thread nD τ).loc main_arg5) := by
  show after part1 (after0 m c) (Proc.devRef .tc main_arg5) = _
  after_results
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at1_arg6 : after1 m c (Proc.devRef .tc main_arg6) = m ((c.tc : Thread nD τ).loc main_arg6) := by
  show after part1 (after0 m c) (Proc.devRef .tc main_arg6) = _
  after_results
  all_goals (try simp only [ofBuf_toBuf, toBuf_v17, ofBuf_v14, ofBuf_v16, ofBuf_cst_4, toBuf_v52, ofBuf_v51, toBuf_v71, ofBuf_v70])
  all_goals rfl

/-! ### After stretch 2 -/
set_option maxHeartbeats 4000000 in
theorem at2_v5 : after2 m c (Proc.devRef .tc main_v5) = Cert.Gcn.sources (F := F) (m ((c.tc : Thread nD τ).loc main_arg1)) := by
  show after part2 (after1 m c) (Proc.devRef .tc main_v5) = _
  after_results
  all_goals exact at1_v5 m c
set_option maxHeartbeats 4000000 in
theorem at2_v6 : after2 m c (Proc.devRef .tc main_v6) = Cert.Gcn.targets (F := F) (m ((c.tc : Thread nD τ).loc main_arg1)) := by
  show after part2 (after1 m c) (Proc.devRef .tc main_v6) = _
  after_results
  all_goals exact at1_v6 m c
set_option maxHeartbeats 4000000 in
theorem at2_v33 : after2 m c (Proc.devRef .tc main_v33) = Cert.Gcn.edgeNorm (F := F) (m ((c.tc : Thread nD τ).loc main_arg1)) (m ((c.tc : Thread nD τ).loc main_arg2)) := by
  show after part2 (after1 m c) (Proc.devRef .tc main_v33) = _
  after_results
  all_goals rw [at1_v17 m c, at1_v5 m c, at1_v8 m c, at1_v6 m c]
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at2_arg0 : after2 m c (Proc.devRef .tc main_arg0) = m ((c.tc : Thread nD τ).loc main_arg0) := by
  show after part2 (after1 m c) (Proc.devRef .tc main_arg0) = _
  after_results
  all_goals exact at1_arg0 m c
set_option maxHeartbeats 4000000 in
theorem at2_arg3 : after2 m c (Proc.devRef .tc main_arg3) = m ((c.tc : Thread nD τ).loc main_arg3) := by
  show after part2 (after1 m c) (Proc.devRef .tc main_arg3) = _
  after_results
  all_goals exact at1_arg3 m c
set_option maxHeartbeats 4000000 in
theorem at2_arg4 : after2 m c (Proc.devRef .tc main_arg4) = m ((c.tc : Thread nD τ).loc main_arg4) := by
  show after part2 (after1 m c) (Proc.devRef .tc main_arg4) = _
  after_results
  all_goals exact at1_arg4 m c
set_option maxHeartbeats 4000000 in
theorem at2_arg5 : after2 m c (Proc.devRef .tc main_arg5) = m ((c.tc : Thread nD τ).loc main_arg5) := by
  show after part2 (after1 m c) (Proc.devRef .tc main_arg5) = _
  after_results
  all_goals exact at1_arg5 m c
set_option maxHeartbeats 4000000 in
theorem at2_arg6 : after2 m c (Proc.devRef .tc main_arg6) = m ((c.tc : Thread nD τ).loc main_arg6) := by
  show after part2 (after1 m c) (Proc.devRef .tc main_arg6) = _
  after_results
  all_goals exact at1_arg6 m c

/-! ### After stretch 3 -/
set_option maxHeartbeats 4000000 in
theorem at3_v5 : after3 m c (Proc.devRef .tc main_v5) = Cert.Gcn.sources (F := F) (m ((c.tc : Thread nD τ).loc main_arg1)) := by
  show after part3 (after2 m c) (Proc.devRef .tc main_v5) = _
  after_results
  all_goals exact at2_v5 m c
set_option maxHeartbeats 4000000 in
theorem at3_v6 : after3 m c (Proc.devRef .tc main_v6) = Cert.Gcn.targets (F := F) (m ((c.tc : Thread nD τ).loc main_arg1)) := by
  show after part3 (after2 m c) (Proc.devRef .tc main_v6) = _
  after_results
  all_goals exact at2_v6 m c
set_option maxHeartbeats 4000000 in
theorem at3_v33 : after3 m c (Proc.devRef .tc main_v33) = Cert.Gcn.edgeNorm (F := F) (m ((c.tc : Thread nD τ).loc main_arg1)) (m ((c.tc : Thread nD τ).loc main_arg2)) := by
  show after part3 (after2 m c) (Proc.devRef .tc main_v33) = _
  after_results
  all_goals exact at2_v33 m c
set_option maxHeartbeats 4000000 in
theorem at3_v35 : after3 m c (Proc.devRef .tc main_v35) = Cert.Gcn.project1 (F := F) (m ((c.tc : Thread nD τ).loc main_arg0)) (Cert.Gcn.weightT1 (m ((c.tc : Thread nD τ).loc main_arg3))) := by
  show after part3 (after2 m c) (Proc.devRef .tc main_v35) = _
  after_results
  all_goals rw [at2_arg0 m c, at2_arg3 m c]
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at3_arg4 : after3 m c (Proc.devRef .tc main_arg4) = m ((c.tc : Thread nD τ).loc main_arg4) := by
  show after part3 (after2 m c) (Proc.devRef .tc main_arg4) = _
  after_results
  all_goals exact at2_arg4 m c
set_option maxHeartbeats 4000000 in
theorem at3_arg5 : after3 m c (Proc.devRef .tc main_arg5) = m ((c.tc : Thread nD τ).loc main_arg5) := by
  show after part3 (after2 m c) (Proc.devRef .tc main_arg5) = _
  after_results
  all_goals exact at2_arg5 m c
set_option maxHeartbeats 4000000 in
theorem at3_arg6 : after3 m c (Proc.devRef .tc main_arg6) = m ((c.tc : Thread nD τ).loc main_arg6) := by
  show after part3 (after2 m c) (Proc.devRef .tc main_arg6) = _
  after_results
  all_goals exact at2_arg6 m c

/-! ### After stretch 4 -/
set_option maxHeartbeats 4000000 in
theorem at4_v5 : after4 m c (Proc.devRef .tc main_v5) = Cert.Gcn.sources (F := F) (m ((c.tc : Thread nD τ).loc main_arg1)) := by
  show after part4 (after3 m c) (Proc.devRef .tc main_v5) = _
  after_results
  all_goals exact at3_v5 m c
set_option maxHeartbeats 4000000 in
theorem at4_v6 : after4 m c (Proc.devRef .tc main_v6) = Cert.Gcn.targets (F := F) (m ((c.tc : Thread nD τ).loc main_arg1)) := by
  show after part4 (after3 m c) (Proc.devRef .tc main_v6) = _
  after_results
  all_goals exact at3_v6 m c
set_option maxHeartbeats 4000000 in
theorem at4_v33 : after4 m c (Proc.devRef .tc main_v33) = Cert.Gcn.edgeNorm (F := F) (m ((c.tc : Thread nD τ).loc main_arg1)) (m ((c.tc : Thread nD τ).loc main_arg2)) := by
  show after part4 (after3 m c) (Proc.devRef .tc main_v33) = _
  after_results
  all_goals exact at3_v33 m c
set_option maxHeartbeats 4000000 in
theorem at4_v48 : after4 m c (Proc.devRef .tc main_v48) = Cert.Gcn.propagate96 (F := F) (m ((c.tc : Thread nD τ).loc main_arg1)) (m ((c.tc : Thread nD τ).loc main_arg2)) (Cert.Gcn.project1 (m ((c.tc : Thread nD τ).loc main_arg0)) (Cert.Gcn.weightT1 (m ((c.tc : Thread nD τ).loc main_arg3)))) := by
  show after part4 (after3 m c) (Proc.devRef .tc main_v48) = _
  after_results
  all_goals rw [at3_v6 m c, at3_v33 m c, at3_v35 m c, at3_v5 m c]
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at4_arg4 : after4 m c (Proc.devRef .tc main_arg4) = m ((c.tc : Thread nD τ).loc main_arg4) := by
  show after part4 (after3 m c) (Proc.devRef .tc main_arg4) = _
  after_results
  all_goals exact at3_arg4 m c
set_option maxHeartbeats 4000000 in
theorem at4_arg5 : after4 m c (Proc.devRef .tc main_arg5) = m ((c.tc : Thread nD τ).loc main_arg5) := by
  show after part4 (after3 m c) (Proc.devRef .tc main_arg5) = _
  after_results
  all_goals exact at3_arg5 m c
set_option maxHeartbeats 4000000 in
theorem at4_arg6 : after4 m c (Proc.devRef .tc main_arg6) = m ((c.tc : Thread nD τ).loc main_arg6) := by
  show after part4 (after3 m c) (Proc.devRef .tc main_arg6) = _
  after_results
  all_goals exact at3_arg6 m c

/-! ### After stretch 5 -/
set_option maxHeartbeats 4000000 in
theorem at5_v5 : after5 m c (Proc.devRef .tc main_v5) = Cert.Gcn.sources (F := F) (m ((c.tc : Thread nD τ).loc main_arg1)) := by
  show after part5 (after4 m c) (Proc.devRef .tc main_v5) = _
  after_results
  all_goals exact at4_v5 m c
set_option maxHeartbeats 4000000 in
theorem at5_v6 : after5 m c (Proc.devRef .tc main_v6) = Cert.Gcn.targets (F := F) (m ((c.tc : Thread nD τ).loc main_arg1)) := by
  show after part5 (after4 m c) (Proc.devRef .tc main_v6) = _
  after_results
  all_goals exact at4_v6 m c
set_option maxHeartbeats 4000000 in
theorem at5_v33 : after5 m c (Proc.devRef .tc main_v33) = Cert.Gcn.edgeNorm (F := F) (m ((c.tc : Thread nD τ).loc main_arg1)) (m ((c.tc : Thread nD τ).loc main_arg2)) := by
  show after part5 (after4 m c) (Proc.devRef .tc main_v33) = _
  after_results
  all_goals exact at4_v33 m c
set_option maxHeartbeats 4000000 in
theorem at5_v52 : after5 m c (Proc.devRef .tc main_v52) = Cert.Gcn.hidden (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after part5 (after4 m c) (Proc.devRef .tc main_v52) = _
  after_results
  all_goals rw [at4_v48 m c, at4_arg4 m c]
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at5_arg5 : after5 m c (Proc.devRef .tc main_arg5) = m ((c.tc : Thread nD τ).loc main_arg5) := by
  show after part5 (after4 m c) (Proc.devRef .tc main_arg5) = _
  after_results
  all_goals exact at4_arg5 m c
set_option maxHeartbeats 4000000 in
theorem at5_arg6 : after5 m c (Proc.devRef .tc main_arg6) = m ((c.tc : Thread nD τ).loc main_arg6) := by
  show after part5 (after4 m c) (Proc.devRef .tc main_arg6) = _
  after_results
  all_goals exact at4_arg6 m c

/-! ### After stretch 6 -/
set_option maxHeartbeats 4000000 in
theorem at6_v5 : after6 m c (Proc.devRef .tc main_v5) = Cert.Gcn.sources (F := F) (m ((c.tc : Thread nD τ).loc main_arg1)) := by
  show after part6 (after5 m c) (Proc.devRef .tc main_v5) = _
  after_results
  all_goals exact at5_v5 m c
set_option maxHeartbeats 4000000 in
theorem at6_v6 : after6 m c (Proc.devRef .tc main_v6) = Cert.Gcn.targets (F := F) (m ((c.tc : Thread nD τ).loc main_arg1)) := by
  show after part6 (after5 m c) (Proc.devRef .tc main_v6) = _
  after_results
  all_goals exact at5_v6 m c
set_option maxHeartbeats 4000000 in
theorem at6_v33 : after6 m c (Proc.devRef .tc main_v33) = Cert.Gcn.edgeNorm (F := F) (m ((c.tc : Thread nD τ).loc main_arg1)) (m ((c.tc : Thread nD τ).loc main_arg2)) := by
  show after part6 (after5 m c) (Proc.devRef .tc main_v33) = _
  after_results
  all_goals exact at5_v33 m c
set_option maxHeartbeats 4000000 in
theorem at6_v54 : after6 m c (Proc.devRef .tc main_v54) = Cert.Gcn.project2 (F := F) (Cert.Gcn.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (Cert.Gcn.weightT2 (m ((c.tc : Thread nD τ).loc main_arg5))) := by
  show after part6 (after5 m c) (Proc.devRef .tc main_v54) = _
  after_results
  all_goals rw [at5_v52 m c, at5_arg5 m c]
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at6_arg6 : after6 m c (Proc.devRef .tc main_arg6) = m ((c.tc : Thread nD τ).loc main_arg6) := by
  show after part6 (after5 m c) (Proc.devRef .tc main_arg6) = _
  after_results
  all_goals exact at5_arg6 m c

/-! ### After stretch 7 -/
set_option maxHeartbeats 4000000 in
theorem at7_v67 : after7 m c (Proc.devRef .tc main_v67) = Cert.Gcn.propagate40 (F := F) (m ((c.tc : Thread nD τ).loc main_arg1)) (m ((c.tc : Thread nD τ).loc main_arg2)) (Cert.Gcn.project2 (Cert.Gcn.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (Cert.Gcn.weightT2 (m ((c.tc : Thread nD τ).loc main_arg5)))) := by
  show after part7 (after6 m c) (Proc.devRef .tc main_v67) = _
  after_results
  all_goals rw [at6_v6 m c, at6_v33 m c, at6_v54 m c, at6_v5 m c]
  all_goals (try simp only [ofBuf_toBuf, toBuf_v17, ofBuf_v14, ofBuf_v16, ofBuf_cst_4, toBuf_v52, ofBuf_v51, toBuf_v71, ofBuf_v70])
  all_goals rfl
set_option maxHeartbeats 4000000 in
theorem at7_arg6 : after7 m c (Proc.devRef .tc main_arg6) = m ((c.tc : Thread nD τ).loc main_arg6) := by
  show after part7 (after6 m c) (Proc.devRef .tc main_arg6) = _
  after_results
  all_goals exact at6_arg6 m c

/-! ### After stretch 8 -/
set_option maxHeartbeats 4000000 in
theorem at8_v70 : after8 m c (Proc.devRef .tc main_v70) = Cert.Gcn.logits (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after part8 (after7 m c) (Proc.devRef .tc main_v70) = _
  after_results
  all_goals rw [at7_v67 m c, at7_arg6 m c]
  all_goals (try simp only [ofBuf_toBuf, toBuf_v17, ofBuf_v14, ofBuf_v16, ofBuf_cst_4, toBuf_v52, ofBuf_v51, toBuf_v71, ofBuf_v70])
  all_goals rfl

/-! ### After stretch 9 -/
set_option maxHeartbeats 4000000 in
theorem at9_v71 : after9 m c (Proc.devRef .tc main_v71) = Cert.Gcn.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after part9 (after8 m c) (Proc.devRef .tc main_v71) = _
  after_results
  all_goals rw [at8_v70 m c]
  all_goals (try simp only [ofBuf_toBuf, toBuf_v17, ofBuf_v14, ofBuf_v16, ofBuf_cst_4, toBuf_v52, ofBuf_v51, toBuf_v71, ofBuf_v70])
  all_goals rfl

set_option maxHeartbeats 42400000 in
/-- Every weakly fair execution of the reference terminates with the result array at the network of the argument
    arrays, and the argument arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = Cert.Gcn.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v71).trans ((congrFun (after_all m c) _).trans (at9_v71 m c)),
      (h c main_arg0).trans (by simp only [ops, StableHlo.after_append]; after_results_simp <;> rfl),
      (h c main_arg1).trans (by simp only [ops, StableHlo.after_append]; after_results_simp <;> rfl),
      (h c main_arg2).trans (by simp only [ops, StableHlo.after_append]; after_results_simp <;> rfl),
      (h c main_arg3).trans (by simp only [ops, StableHlo.after_append]; after_results_simp <;> rfl),
      (h c main_arg4).trans (by simp only [ops, StableHlo.after_append]; after_results_simp <;> rfl),
      (h c main_arg5).trans (by simp only [ops, StableHlo.after_append]; after_results_simp <;> rfl),
      (h c main_arg6).trans (by simp only [ops, StableHlo.after_append]; after_results_simp <;> rfl)⟩)
    (run_seq scopedRefs_eq scopedSems_eq defs main (fun _ => ops) main_eq (fun _ => ops_sub) m ρ)

end Cert.ReferenceIdeal.Whole

end
-- ==== Proof.Reals.lean ====
/-
  Finite rows, and the two groupings of the log-softmax.

  On the extended reals  z - (m + l)  and  (z - m) - l  agree when m and l are real numbers, and need not when
  one of them is infinite.  For a row of real numbers the maximum is real, every exponential of a difference is a
  positive real, their sum is a positive real and its logarithm is real: on such a row the kernel's grouping of
  the log-softmax and the reference's are the same number.

  Real numbers are what the network computes from real numbers.  An entry picked by a gather, a broadcast, a
  transposition or a concatenation is an entry of an operand; sums, products and maxima of reals are real; a
  scatter-add adds finitely many updates to an entry; a real power of a real is real; the three float constants
  of the program (0, 1, -1/2) are real.  So if the float arguments hold real numbers, so does the second
  layer's biased output, whatever the edge table holds.
-/
import proofs.«161012_j21045339750898_1_alg».proof.Proof.RefForms

set_option maxRecDepth 16384

noncomputable section

open scoped BigOperators

namespace Cert.Gcn.Reals

open Idealize.ShloMosaic Idealize.ShloMosaic.ValueIdx Cert.Gcn.Product Cert.Gcn.Rows

/-- Every entry is a real number. -/
def AllReal {ι : Type} (a : ι → EReal) : Prop := ∀ i, ∃ r : ℝ, a i = r

/-! ## Sums and maxima of reals -/

theorem coe_sum {ι : Type} (s : Finset ι) (g : ι → ℝ) : ∑ c ∈ s, ((g c : ℝ) : EReal) = ((∑ c ∈ s, g c : ℝ) : EReal) := by
  classical
  induction s using Finset.induction_on with
  | empty => simp
  | insert a s ha ih => rw [Finset.sum_insert ha, Finset.sum_insert ha, ih, EReal.coe_add]

theorem sum_real {ι : Type} (s : Finset ι) (u : ι → EReal) (hu : ∀ j, ∃ r : ℝ, u j = r) : ∃ r : ℝ, ∑ j ∈ s, u j = r := by
  choose g hg using hu
  exact ⟨∑ j ∈ s, g j, by rw [Finset.sum_congr rfl (fun j _ => hg j), coe_sum]⟩

theorem coe_max (x y : ℝ) : max (x : EReal) (y : EReal) = ((max x y : ℝ) : EReal) :=
  (EReal.coe_strictMono.monotone.map_max).symm

theorem fold_max_real {ι : Type} (s : Finset ι) (hs : s.Nonempty) (g : ι → ℝ) :
    ∃ t : ℝ, s.fold max ⊥ (fun c => (g c : EReal)) = t := by
  classical
  induction hs using Finset.Nonempty.cons_induction with
  | singleton a => exact ⟨g a, by rw [Finset.fold_singleton]; exact max_eq_left bot_le⟩
  | cons a s ha hs ih =>
    obtain ⟨t, ht⟩ := ih
    exact ⟨max (g a) t, by rw [Finset.fold_cons, ht, coe_max]⟩

/-! ## The two groupings agree on a row of reals -/

theorem exp_real (x : ℝ) : Ideal.exp (x : EReal) = ((Real.exp x : ℝ) : EReal) := rfl
theorem log_real (x : ℝ) (hx : 0 < x) : Ideal.log (x : EReal) = ((Real.log x : ℝ) : EReal) := by
  show (if x ≤ 0 then (⊥ : EReal) else ((Real.log x : ℝ) : EReal)) = _
  rw [if_neg (not_le.mpr hx)]

theorem groupings_agree {n f : Nat} (hf : 0 < f) (Z : (⟨2, ![n, f]⟩ : Shape).Idx → EReal) (i : (⟨2, ![n, f]⟩ : Shape).Idx)
    (hrow : ∀ c : Fin f, ∃ r : ℝ, Z (inSameRow i c) = r) (hi : ∃ r : ℝ, Z i = r) :
    logSoftmaxK Z i = logSoftmaxR Z i := by
  choose g hg using hrow
  obtain ⟨z, hz⟩ := hi
  have hne : (Finset.univ : Finset (Fin f)).Nonempty := ⟨⟨0, hf⟩, Finset.mem_univ _⟩
  obtain ⟨t, ht⟩ : ∃ t : ℝ, rowTop Z i = t := by
    unfold rowTop
    rw [show (fun c => Z (inSameRow i c)) = fun c => ((g c : ℝ) : EReal) from funext hg]
    exact fold_max_real _ hne g
  obtain ⟨l, hl⟩ : ∃ l : ℝ, rowLogSum Z i = l := by
    unfold rowLogSum
    rw [ht]
    have hterm : ∀ c ∈ (Finset.univ : Finset (Fin f)), Ideal.exp (Z (inSameRow i c) - (t : EReal)) = ((Real.exp (g c - t) : ℝ) : EReal) := fun c _ => by
      rw [hg c, ← EReal.coe_sub, exp_real]
    rw [Finset.sum_congr rfl hterm, coe_sum]
    have hpos : 0 < ∑ c : Fin f, Real.exp (g c - t) := Finset.sum_pos (fun c _ => Real.exp_pos _) hne
    exact ⟨_, log_real _ hpos⟩
  unfold logSoftmaxK logSoftmaxR
  rw [ht, hl, hz, ← EReal.coe_add, ← EReal.coe_sub, ← EReal.coe_sub, ← EReal.coe_sub]
  congr 1
  ring

/-! ## The network's operations keep reals real -/

theorem word_real (w : BitVec 32) (h : (w.extractLsb' 23 8).toNat ≠ 2 ^ 8 - 1) : ∃ r : ℝ, Ideal.ofBits .f32 w = r := by
  show ∃ r : ℝ, Ideal.ieee 8 23 w = r
  unfold Ideal.ieee
  simp only []
  rw [if_neg h]
  split_ifs <;> exact ⟨_, rfl⟩

theorem zero_real : ∃ r : ℝ, Ideal.ofBits .f32 0x00000000#32 = r := word_real _ (by decide)
theorem one_real : ∃ r : ℝ, Ideal.ofBits .f32 0x3F800000#32 = r := word_real _ (by decide)
theorem minusHalf_real : ∃ r : ℝ, Ideal.ofBits .f32 0xBF000000#32 = r := word_real _ (by decide)

section Ops
variable {s t si u : Shape}

theorem broadcast_real (dims : Fin s.rank → Fin t.rank) (h : s.BroadcastsInDim t dims) (x : s.Idx → EReal) (hx : AllReal x) :
    AllReal (broadcastInDim t dims h x) := fun j => by
  unfold broadcastInDim
  exact hx _

theorem splat_real (w : BitVec 32) (hw : ∃ r : ℝ, Ideal.ofBits .f32 w = r) : AllReal (constant (F := Ideal) s .f32 w) := fun _ => hw

theorem transpose_real (perm : List (Fin s.rank)) (x : s.Idx → EReal) (h : s.Transposes perm t) (hx : AllReal x) :
    AllReal (transpose t perm x h) := fun j => by
  unfold transpose
  exact hx _

theorem gather_real {w : Nat} (d : GatherDims s si t) (x : s.Idx → EReal) (idx : IVec si w) (hx : AllReal x) :
    AllReal (Host.gather d x idx) := fun j => hx _

theorem mul_real (a b : FVec Ideal s .f32) (ha : AllReal a) (hb : AllReal b) : AllReal (mulf a b) := fun i => by
  obtain ⟨p, hp⟩ := ha i
  obtain ⟨q, hq⟩ := hb i
  exact ⟨p * q, by show a i * b i = _; rw [hp, hq, EReal.coe_mul]⟩

theorem select_real (c : IVec s 1) (a b : s.Idx → EReal) (ha : AllReal a) (hb : AllReal b) : AllReal (select c a b) := fun i => by
  show ∃ r : ℝ, (if c i = 1 then a i else b i) = r
  split
  · exact ha i
  · exact hb i

theorem pow_real (a b : FVec Ideal s .f32) (ha : AllReal a) (hb : AllReal b) : AllReal (Host.powf a b) := fun i => by
  obtain ⟨p, hp⟩ := ha i
  obtain ⟨q, hq⟩ := hb i
  exact ⟨Real.rpow p q, by show Ideal.pow (a i) (b i) = _; rw [hp, hq]; rfl⟩

theorem scatterAdd_real {w : Nat} (d : ScatterDims s si u) (x : FVec Ideal s .f32) (idx : IVec si w) (upd : FVec Ideal u .f32)
    (hx : AllReal x) (hu : AllReal upd) : AllReal (Host.scatterAdd d x idx upd) := fun i => by
  obtain ⟨p, hp⟩ := hx i
  obtain ⟨q, hq⟩ := sum_real (Finset.univ.filter fun j => d.resultIdx? j idx = some i) upd hu
  exact ⟨p + q, by show x i + ∑ j ∈ Finset.univ.filter (fun j => d.resultIdx? j idx = some i), upd j = _; rw [hp, hq, EReal.coe_add]⟩

end Ops

theorem rowsByCols_real {n k p : Nat} (X : (⟨2, ![n, k]⟩ : Shape).Idx → EReal) (Y : (⟨2, ![k, p]⟩ : Shape).Idx → EReal)
    (hX : AllReal X) (hY : AllReal Y) : AllReal (rowsByCols X Y) := fun i => by
  unfold rowsByCols
  refine sum_real _ _ fun c => ?_
  obtain ⟨a, ha⟩ := hX (inRow i c)
  obtain ⟨b, hb⟩ := hY (inCol i c)
  exact ⟨a * b, by rw [ha, hb, EReal.coe_mul]⟩

theorem biased_real {n f : Nat} (A : (⟨2, ![n, f]⟩ : Shape).Idx → EReal) (b : (⟨1, ![f]⟩ : Shape).Idx → EReal)
    (hA : AllReal A) (hb : AllReal b) : AllReal (biased A b) := fun i => by
  obtain ⟨p, hp⟩ := hA i
  obtain ⟨q, hq⟩ := hb (colOf i)
  exact ⟨p + q, by unfold biased; rw [hp, hq, EReal.coe_add]⟩

theorem positive_real {n f : Nat} (Z : (⟨2, ![n, f]⟩ : Shape).Idx → EReal) (hZ : AllReal Z) : AllReal (positive Z) := fun i => by
  obtain ⟨p, hp⟩ := hZ i
  exact ⟨max p 0, by unfold positive; rw [hp, ← EReal.coe_zero, coe_max]⟩

/-! ## The network -/

section Network
open Cert.ReferenceIdeal Cert.ReferenceIdeal.Facts₀

variable (x : (⟨S50000x256, .f32⟩ : BufTy).Contents (Elt Ideal)) (ei : (⟨S2x800000, .i32⟩ : BufTy).Contents (Elt Ideal))
  (ew : (⟨S800000, .f32⟩ : BufTy).Contents (Elt Ideal)) (w1 : (⟨S96x256, .f32⟩ : BufTy).Contents (Elt Ideal))
  (b1 : (⟨S96, .f32⟩ : BufTy).Contents (Elt Ideal)) (w2 : (⟨S40x96, .f32⟩ : BufTy).Contents (Elt Ideal))
  (b2 : (⟨S40, .f32⟩ : BufTy).Contents (Elt Ideal))

theorem weights_real (hew : AllReal ew) : AllReal (Cert.Gcn.weights (F := Ideal) ew) := fun j => by
  unfold Cert.Gcn.weights
  by_cases hj : (j 0).val < 800000
  · rw [concatenate_pair_apply_left (0 : Fin S850000.rank) ew _ concatenates_S800000_S50000_S850000_d0 j rfl (ix1 (n := 800000) ⟨(j 0).val, hj⟩)
      (fun b => by match b with | ⟨0, _⟩ => rfl)]
    exact hew _
  · have hj' : (j 0).val < 850000 := (j 0).isLt
    rw [concatenate_pair_apply_right (0 : Fin S850000.rank) ew _ concatenates_S800000_S50000_S850000_d0 j rfl rfl (ix1 (n := 50000) ⟨(j 0).val - 800000, by omega⟩)
      (fun b hb => by match b with | ⟨0, _⟩ => exact absurd rfl hb) (by show (j 0).val - 800000 + 800000 = (j 0).val; omega)]
    exact broadcast_real _ _ _ (splat_real _ one_real) _

theorem degree_real : AllReal (Cert.Gcn.degree (F := Ideal) ei) := by
  unfold Cert.Gcn.degree
  exact scatterAdd_real _ _ _ _ (broadcast_real _ _ _ (splat_real _ zero_real)) (broadcast_real _ _ _ (splat_real _ one_real))

theorem invSqrtDegree_real : AllReal (Cert.Gcn.invSqrtDegree (F := Ideal) ei) := by
  unfold Cert.Gcn.invSqrtDegree
  exact select_real _ _ _ (pow_real _ _ (degree_real ei) (broadcast_real _ _ _ (splat_real _ minusHalf_real)))
    (broadcast_real _ _ _ (splat_real _ zero_real))

theorem edgeNorm_real (hew : AllReal ew) : AllReal (Cert.Gcn.edgeNorm (F := Ideal) ei ew) := by
  unfold Cert.Gcn.edgeNorm
  exact mul_real _ _ (mul_real _ _ (gather_real _ _ _ (invSqrtDegree_real ei)) (weights_real ew hew)) (gather_real _ _ _ (invSqrtDegree_real ei))

theorem propagate96_real (hew : AllReal ew) (h : (⟨S50000x96, .f32⟩ : BufTy).Contents (Elt Ideal)) (hh : AllReal h) :
    AllReal (Cert.Gcn.propagate96 (F := Ideal) ei ew h) := by
  unfold Cert.Gcn.propagate96
  exact scatterAdd_real _ _ _ _ (broadcast_real _ _ _ (splat_real _ zero_real))
    (mul_real _ _ (broadcast_real _ _ _ (broadcast_real _ _ _ (edgeNorm_real ei ew hew))) (gather_real _ _ _ hh))

theorem propagate40_real (hew : AllReal ew) (h : (⟨S50000x40, .f32⟩ : BufTy).Contents (Elt Ideal)) (hh : AllReal h) :
    AllReal (Cert.Gcn.propagate40 (F := Ideal) ei ew h) := by
  unfold Cert.Gcn.propagate40
  exact scatterAdd_real _ _ _ _ (broadcast_real _ _ _ (splat_real _ zero_real))
    (mul_real _ _ (broadcast_real _ _ _ (broadcast_real _ _ _ (edgeNorm_real ei ew hew))) (gather_real _ _ _ hh))

theorem hidden_real (hx : AllReal x) (hew : AllReal ew) (hw1 : AllReal w1) (hb1 : AllReal b1) :
    AllReal (Cert.Gcn.hidden (F := Ideal) x ei ew w1 b1) := by
  unfold Cert.Gcn.hidden
  rw [Cert.Gcn.Forms.relu_eq, Cert.Gcn.Forms.addBias96_eq, Cert.Gcn.Forms.project1_eq]
  exact positive_real _ (biased_real _ _ (propagate96_real ei ew hew _ (rowsByCols_real _ _ hx (by unfold Cert.Gcn.weightT1; exact transpose_real _ _ _ hw1))) hb1)

/-- The second layer's biased output holds real numbers. -/
theorem logits_real (hx : AllReal x) (hew : AllReal ew) (hw1 : AllReal w1) (hb1 : AllReal b1) (hw2 : AllReal w2) (hb2 : AllReal b2) :
    AllReal (biased (n := 50000) (f := 40) (Cert.Gcn.propagate40 (F := Ideal) ei ew (Cert.Gcn.project2 (Cert.Gcn.hidden x ei ew w1 b1) (Cert.Gcn.weightT2 w2))) b2) := by
  rw [Cert.Gcn.Forms.project2_eq]
  exact biased_real _ _ (propagate40_real ei ew hew _ (rowsByCols_real _ _ (hidden_real x ei ew w1 b1 hx hew hw1 hb1) (by unfold Cert.Gcn.weightT2; exact transpose_real _ _ _ hw2))) hb2

/-- On real arguments the kernel's grouping of the last step is the reference's network. -/
theorem kernel_grouping_is_network (hx : AllReal x) (hew : AllReal ew) (hw1 : AllReal w1) (hb1 : AllReal b1) (hw2 : AllReal w2) (hb2 : AllReal b2) :
    logSoftmaxK (n := 50000) (f := 40) (biased (Cert.Gcn.propagate40 (F := Ideal) ei ew (Cert.Gcn.project2 (Cert.Gcn.hidden x ei ew w1 b1) (Cert.Gcn.weightT2 w2))) b2)
      = Cert.Gcn.network (F := Ideal) x ei ew w1 b1 w2 b2 := by
  unfold Cert.Gcn.network Cert.Gcn.logits
  rw [Cert.Gcn.Forms.logSoftmax_eq, Cert.Gcn.Forms.addBias40_eq]
  funext i
  have hR := logits_real x ei ew w1 b1 w2 b2 hx hew hw1 hb1 hw2 hb2
  exact groupings_agree (by decide) _ i (fun c => hR _) (hR i)

end Network

end Cert.Gcn.Reals

end
-- ==== Proof.Inputs.lean ====
/-
  What the precondition says of the float arguments.

  The precondition is one bit: the conjunction, over the six float arguments, of "every entry's absolute value is
  below plus infinity".  An extended real whose absolute value is below plus infinity is neither infinity: it is a
  real number.  So under the precondition every float argument holds real numbers.  (The edge table is an integer
  array; the precondition says nothing of it, and nothing is needed of it.)
-/
import proofs.«161012_j21045339750898_1_alg».proof.Pre_finite_inputs
import proofs.«161012_j21045339750898_1_alg».proof.Proof.Reals
import Idealize.ShloMosaic.Lib.ReduceAll

set_option maxRecDepth 16384

noncomputable section

namespace Cert.Gcn.Inputs

open Idealize.ShloMosaic Idealize.ShloMosaic.ValueIdx Cert.Gcn.Reals
open Cert.Pre_finite_inputs Cert.Pre_finite_inputs.Facts

variable [Cert.Pre_finite_inputs.Facts]

instance : Subsingleton S_.Idx := ⟨fun a b => funext fun d => d.elim0⟩

theorem plusInf : Ideal.ofBits .f32 0x7F800000#32 = (⊤ : EReal) := by simp [Ideal.ofBits, Ideal.ieee]

/-- An extended real whose absolute value compares below plus infinity is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  rw [Ideal.hostAbsf_def, Ideal.cmpf_def, Ideal.absf_def, plusInf] at h
  have hlt : max x (-x) < ⊤ := by
    by_contra hn
    have h0 : Ideal.cmp .olt (max x (-x)) ⊤ = 0#1 := by simp [Ideal.cmp, hn]
    rw [h0] at h
    exact absurd h (by decide)
  induction x using EReal.rec
  · exact absurd hlt (by simp)
  · exact ⟨_, rfl⟩
  · exact absurd hlt (by simp)

/-- One `jnp.all(|x| < inf)` that came out true: every entry of x is real. -/
theorem allReal_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ix0 = 1#1) :
    AllReal x := fun i =>
  real_of_abs_lt (x i) (Host.reduce_andi_all _ _ hr hu ix0 e i)

/-- Under the precondition the six float arguments hold real numbers. -/
theorem floats_real (a0 : FVec Ideal S50000x256 .f32) (a1 : IVec S2x800000 32) (a2 : FVec Ideal S800000 .f32) (a3 : FVec Ideal S96x256 .f32)
    (a4 : FVec Ideal S96 .f32) (a5 : FVec Ideal S40x96 .f32) (a6 : FVec Ideal S40 .f32)
    (h : fn (F := Ideal) a0 a1 a2 a3 a4 a5 a6 = fun _ => 1#1) :
    AllReal a0 ∧ AllReal a2 ∧ AllReal a3 ∧ AllReal a4 ∧ AllReal a5 ∧ AllReal a6 := by
  have h0 := congrFun h ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨allReal_of_all a0 _ _ _ e0, allReal_of_all a2 _ _ _ e2, allReal_of_all a3 _ _ _ e3, allReal_of_all a4 _ _ _ e4,
    allReal_of_all a5 _ _ _ e5, allReal_of_all a6 _ _ _ e6⟩

end Cert.Gcn.Inputs

end
-- ==== Proof.lean ====
/-
  A two-layer graph convolution network on 50000 nodes and 850000 edges, as four Pallas kernels among host
  gathers and scatter-adds, against its jnp reference: equal results on the extended reals.

  Both programs build the same normalised edge weights and pass messages along the edges with the same host
  operations.  They differ in the dense steps.  The kernel projects features with a blocked matrix product of
  operands narrowed to bf16 (the identity on extended reals), adds the bias and takes the positive part block by
  block, and ends with a blocked log-softmax grouped as  z - (max + log Σ exp (z - max));  the reference contracts
  whole arrays and groups the log-softmax as  (z - max) - log Σ exp (z - max).

  Proof/Spec.lean states the network step by step.  Proof/RefRun.lean reads the reference's run as that network.
  Proof/KernelRun.lean and Proof/KernelValue.lean follow the kernel's buffers through its ten segments, with the
  regions' blocks put together into whole arrays in Proof/BlocksProduct.lean and Proof/BlocksRows.lean, and
  Proof/RefForms.lean reads the reference's dense steps index by index: below the last step the two results are
  the same term.  The two groupings of the last step agree on rows of real numbers (Proof/Reals.lean), and the
  rows are real because the precondition makes the float arguments real (Proof/Inputs.lean) and the network keeps
  reals real.  The precondition is used for nothing else, and the edge table may hold anything.
-/
import proofs.«161012_j21045339750898_1_alg».proof.Defs
import proofs.«161012_j21045339750898_1_alg».proof.Proof.Gen.Kernel
import proofs.«161012_j21045339750898_1_alg».proof.Proof.Gen.Kernel.Skeleton
import proofs.«161012_j21045339750898_1_alg».proof.Proof.Gen.Kernel.Launch
import proofs.«161012_j21045339750898_1_alg».proof.Proof.Gen.Kernel.Points
import proofs.«161012_j21045339750898_1_alg».proof.Proof.Gen.Kernel.Frame
import proofs.«161012_j21045339750898_1_alg».proof.Proof.Gen.KernelIdeal
import proofs.«161012_j21045339750898_1_alg».proof.Proof.Gen.KernelIdeal.Skeleton
import proofs.«161012_j21045339750898_1_alg».proof.Proof.Gen.KernelIdeal.Launch
import proofs.«161012_j21045339750898_1_alg».proof.Proof.Gen.KernelIdeal.Points
import proofs.«161012_j21045339750898_1_alg».proof.Proof.Gen.KernelIdeal.Frame
import proofs.«161012_j21045339750898_1_alg».proof.Proof.Gen.ReferenceIdeal
import proofs.«161012_j21045339750898_1_alg».proof.Proof.Gen.Pre_finite_inputs
import proofs.«161012_j21045339750898_1_alg».proof.Proof.KernelValue
import proofs.«161012_j21045339750898_1_alg».proof.Proof.RefRun
import proofs.«161012_j21045339750898_1_alg».proof.Proof.Inputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Whole.run (F := Ideal) m ρ)

/-- The ideal pass rewrote nothing. -/
theorem preserves : Cert.preserves_Kernel_KernelIdeal := trivial

/-- Both programs end with the network of the arguments in their result arrays. -/
theorem algebraic : Cert.algebraic_KernelIdeal_ReferenceIdeal := by
  intro m ρ m' ρ' hpre hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Whole.run_all (F := Ideal) m ρ)
    obtain ⟨r0, r2, r3, r4, r5, r6⟩ := Cert.Gcn.Inputs.floats_real _ _ _ _ _ _ _ (hpre c)
    exact ⟨(h c _ (Cert.KernelIdeal.Whole.named Cert.KernelIdeal.main_v65 (by decide))).trans
          ((Cert.KernelIdeal.Whole.out4_v65 m ρ c).trans (Cert.Gcn.Reals.kernel_grouping_is_network _ _ _ _ _ _ _ r0 r2 r3 r4 r5 r6)),
        (h c _ (Cert.KernelIdeal.Whole.named Cert.KernelIdeal.main_arg0 (by decide))).trans (Cert.KernelIdeal.Gen.W10_main_arg0 m ρ c),
        (h c _ (Cert.KernelIdeal.Whole.named Cert.KernelIdeal.main_arg1 (by decide))).trans (Cert.KernelIdeal.Gen.W10_main_arg1 m ρ c),
        (h c _ (Cert.KernelIdeal.Whole.named Cert.KernelIdeal.main_arg2 (by decide))).trans (Cert.KernelIdeal.Gen.W10_main_arg2 m ρ c),
        (h c _ (Cert.KernelIdeal.Whole.named Cert.KernelIdeal.main_arg3 (by decide))).trans (Cert.KernelIdeal.Gen.W10_main_arg3 m ρ c),
        (h c _ (Cert.KernelIdeal.Whole.named Cert.KernelIdeal.main_arg4 (by decide))).trans (Cert.KernelIdeal.Gen.W10_main_arg4 m ρ c),
        (h c _ (Cert.KernelIdeal.Whole.named Cert.KernelIdeal.main_arg5 (by decide))).trans (Cert.KernelIdeal.Gen.W10_main_arg5 m ρ c),
        (h c _ (Cert.KernelIdeal.Whole.named Cert.KernelIdeal.main_arg6 (by decide))).trans (Cert.KernelIdeal.Gen.W10_main_arg6 m ρ c)⟩
  · refine (θ_run Cert.ReferenceIdeal.defs _ _).mono (fun r h c => ⟨(h c).1.trans ?_, (h c).2⟩) (Cert.ReferenceIdeal.Whole.run (F := Ideal) m' ρ')
    show Cert.Gcn.network (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
